-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S128x128 : Shape := ⟨2, ![128, 128]⟩
abbrev S128 : Shape := ⟨1, ![128]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S128x4096 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S128x4096 : Shape := ⟨2, ![128, 4096]⟩
abbrev S128x128 : Shape := ⟨2, ![128, 128]⟩
abbrev S128 : Shape := ⟨1, ![128]⟩
abbrev S4096x128 : Shape := ⟨2, ![4096, 128]⟩
abbrev S1x128 : Shape := ⟨2, ![1, 128]⟩
abbrev S4096x4x32 : Shape := ⟨3, ![4096, 4, 32]⟩
abbrev S4x4096x32 : Shape := ⟨3, ![4, 4096, 32]⟩
abbrev S4x32x4096 : Shape := ⟨3, ![4, 32, 4096]⟩
abbrev S2x128x4096 : Shape := ⟨3, ![2, 128, 4096]⟩
abbrev S2x256x32 : Shape := ⟨3, ![2, 256, 32]⟩
abbrev S2x32x4096 : Shape := ⟨3, ![2, 32, 4096]⟩
abbrev S128x256 : Shape := ⟨2, ![128, 256]⟩
abbrev S1x128x4096 : Shape := ⟨3, ![1, 128, 4096]⟩
abbrev S1x256x32 : Shape := ⟨3, ![1, 256, 32]⟩
abbrev S256x32 : Shape := ⟨2, ![256, 32]⟩
abbrev S1x32x4096 : Shape := ⟨3, ![1, 32, 4096]⟩
abbrev S32x4096 : Shape := ⟨2, ![32, 4096]⟩
abbrev S256x4096 : Shape := ⟨2, ![256, 4096]⟩
abbrev S256 : Shape := ⟨1, ![256]⟩
abbrev S256x1 : Shape := ⟨2, ![256, 1]⟩
abbrev S_ : Shape := ⟨0, ![]⟩

abbrev nBuf : Space → Nat
  | .hbm => 26
  | .vmem => 9
  | .smem => 0
  | _ => 0

abbrev bufTy : (tb : Table) → Fin (tcTables nBuf tb) → BufTy
  | .hbm, ⟨0, _⟩ => ⟨S128x4096, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4096x128, .f32⟩
  | .hbm, ⟨8, _⟩ => ⟨S4096x128, .f32⟩
  | .hbm, ⟨9, _⟩ => ⟨S1x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S1x128, .f32⟩
  | .hbm, ⟨14, _⟩ => ⟨S4096x128, .f32⟩
  | .hbm, ⟨15, _⟩ => ⟨S4096x128, .f32⟩
  | .hbm, ⟨16, _⟩ => ⟨S4096x4x32, .f32⟩
  | .hbm, ⟨17, _⟩ => ⟨S4x4096x32, .f32⟩
  | .hbm, ⟨18, _⟩ => ⟨S4096x4x32, .f32⟩
  | .hbm, ⟨19, _⟩ => ⟨S4x32x4096, .f32⟩
  | .hbm, ⟨20, _⟩ => ⟨S2x128x4096, .f32⟩
  | .hbm, ⟨21, _⟩ => ⟨S_, .f32⟩
  | .hbm, ⟨22, _⟩ => ⟨S128x4096, .f32⟩
  | .hbm, ⟨23, _⟩ => ⟨S_, .f32⟩
  | .hbm, ⟨24, _⟩ => ⟨S128x4096, .f32⟩
  | .hbm, ⟨25, _⟩ => ⟨S128x4096, .f32⟩
  | .local _ .vmem, ⟨0, _⟩ => ⟨S2x256x32, .f32⟩
  | .local _ .vmem, ⟨1, _⟩ => ⟨S2x256x32, .f32⟩
  | .local _ .vmem, ⟨2, _⟩ => ⟨S2x32x4096, .f32⟩
  | .local _ .vmem, ⟨3, _⟩ => ⟨S2x32x4096, .f32⟩
  | .local _ .vmem, ⟨4, _⟩ => ⟨S128x256, .f32⟩
  | .local _ .vmem, ⟨5, _⟩ => ⟨S128x256, .f32⟩
  | .local _ .vmem, ⟨6, _⟩ => ⟨S1x128x4096, .f32⟩
  | .local _ .vmem, ⟨7, _⟩ => ⟨S1x128x4096, .f32⟩
  | .local _ .vmem, ⟨8, _⟩ => ⟨S128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_25 : BitVec 32 := 0#32
  let v45 : BitVec 1 := Scalar.cmpi .ne v44 c0_i32_25
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S128x4096_S4096x128_1_0 : S128x4096.Transposes [1, 0] S4096x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  shapeCasts_S4096x128_S4096x4x32 : S4096x128.ShapeCasts S4096x4x32
  transposes_S4096x4x32_S4x4096x32_1_0_2 : S4096x4x32.Transposes [1, 0, 2] S4x4096x32
  transposes_S4096x4x32_S4x32x4096_1_2_0 : S4096x4x32.Transposes [1, 2, 0] S4x32x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x256_S128x256_0_0 : ∀ a, (![0, 0] : Fin 2 → Nat) a + S128x256.size a ≤ S128x256.size a
  h_S128x256 : 0 < S128x256.numel
  inb_S2x256x32_S1x256x32_0_0_0 : ∀ a, (![0, 0, 0] : Fin 3 → Nat) a + S1x256x32.size a ≤ S2x256x32.size a
  h_S1x256x32 : 0 < S1x256x32.numel
  shapeCasts_S1x256x32_S256x32 : S1x256x32.ShapeCasts S256x32
  inb_S2x32x4096_S1x32x4096_0_0_0 : ∀ a, (![0, 0, 0] : Fin 3 → Nat) a + S1x32x4096.size a ≤ S2x32x4096.size a
  h_S1x32x4096 : 0 < S1x32x4096.numel
  shapeCasts_S1x32x4096_S32x4096 : S1x32x4096.ShapeCasts S32x4096
  reduces_S256x4096_S256 : S256x4096.Reduces [1] S256
  shapeCasts_S256_S256x1 : S256.ShapeCasts S256x1
  broadcasts_S256x1_S256x4096 : S256x1.Broadcasts S256x4096
  inb_S2x256x32_S1x256x32_1_0_0 : ∀ a, (![1, 0, 0] : Fin 3 → Nat) a + S1x256x32.size a ≤ S2x256x32.size a
  inb_S2x32x4096_S1x32x4096_1_0_0 : ∀ a, (![1, 0, 0] : Fin 3 → Nat) a + S1x32x4096.size a ≤ S2x32x4096.size a
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  reducesTo_S2x128x4096_S128x4096_d0 : S2x128x4096.ReducesTo [0] S128x4096
  h_S_ : 0 < S_.numel
  bcast_S_S128x4096 : S_.BroadcastsInDim S128x4096 (![] : Fin 0 → Fin S128x4096.rank)
  dot_S4096x128_S128x128_S4096x128_1_0_0_1_n_n_wf : DotDims.WF S4096x128 S128x128 S4096x128 [1] [0] [0] [1] [] []
  dot_S256x32_S32x4096_S256x4096_1_0_0_1_n_n_wf : DotDims.WF S256x32 S32x4096 S256x4096 [1] [0] [0] [1] [] []
  dot_S128x256_S256x4096_S128x4096_1_0_0_1_n_n_wf : DotDims.WF S128x256 S256x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x32.size a ≤ S4x4096x32.size a
  hwx0_0 : ∀ i : grid0.Coords, EltTy.bits .f32 = 32 ∨ (Rect.block (s := S4x4096x32) S2x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32x4096.size a ≤ S4x32x4096.size a
  hwx0_1 : ∀ i : grid0.Coords, EltTy.bits .f32 = 32 ∨ (Rect.block (s := S4x32x4096) S2x32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x4096.size a
  hwx0_2 : ∀ i : grid0.Coords, EltTy.bits .f32 = 32 ∨ (Rect.block (s := S128x4096) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S2x128x4096.size a
  hwx0_3 : ∀ i : grid0.Coords, EltTy.bits .f32 = 32 ∨ (Rect.block (s := S2x128x4096) S1x128x4096.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf

abbrev win0_0 : Pipeline.Window sig grid0 :=
  Pipeline.Window.ofSpec (Memref.whole main_v10) S2x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2x32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x4096 : Shape := ⟨2, ![128, 4096]⟩
abbrev S128x128 : Shape := ⟨2, ![128, 128]⟩
abbrev S128 : Shape := ⟨1, ![128]⟩
abbrev S4096x128 : Shape := ⟨2, ![4096, 128]⟩
abbrev S1x128 : Shape := ⟨2, ![1, 128]⟩
abbrev S4096x4x32 : Shape := ⟨3, ![4096, 4, 32]⟩
abbrev S4x4096x32 : Shape := ⟨3, ![4, 4096, 32]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4096x128, .f32⟩
  | .hbm, ⟨8, _⟩ => ⟨S4096x128, .f32⟩
  | .hbm, ⟨9, _⟩ => ⟨S1x128, .f32⟩
  | .hbm, ⟨10, _⟩ => ⟨S4096x128, .f32⟩
  | .hbm, ⟨11, _⟩ => ⟨S4096x128, .f32⟩
  | .hbm, ⟨12, _⟩ => ⟨S4096x4x32, .f32⟩
  | .hbm, ⟨13, _⟩ => ⟨S4x4096x32, .f32⟩
  | .hbm, ⟨14, _⟩ => ⟨S4096x128, .f32⟩
  | .hbm, ⟨15, _⟩ => ⟨S1x128, .f32⟩
  | .hbm, ⟨16, _⟩ => ⟨S4096x128, .f32⟩
  | .hbm, ⟨17, _⟩ => ⟨S4096x128, .f32⟩
  | .hbm, ⟨18, _⟩ => ⟨S4096x4x32, .f32⟩
  | .hbm, ⟨19, _⟩ => ⟨S4x4096x32, .f32⟩
  | .hbm, ⟨20, _⟩ => ⟨S4096x128, .f32⟩
  | .hbm, ⟨21, _⟩ => ⟨S1x128, .f32⟩
  | .hbm, ⟨22, _⟩ => ⟨S4096x128, .f32⟩
  | .hbm, ⟨23, _⟩ => ⟨S4096x128, .f32⟩
  | .hbm, ⟨24, _⟩ => ⟨S4096x4x32, .f32⟩
  | .hbm, ⟨25, _⟩ => ⟨S4x4096x32, .f32⟩
  | .hbm, ⟨26, _⟩ => ⟨S4x4096x4096, .f32⟩
  | .hbm, ⟨27, _⟩ => ⟨S_, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S_, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  transposes_S128x4096_S4096x128_1_0 : S128x4096.Transposes [1, 0] S4096x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  shapeCasts_S4096x128_S4096x4x32 : S4096x128.ShapeCasts S4096x4x32
  transposes_S4096x4x32_S4x4096x32_1_0_2 : S4096x4x32.Transposes [1, 0, 2] S4x4096x32
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  reducesTo_S4x4096x4096_S4096x4096_d0 : S4x4096x4096.ReducesTo [0] S4096x4096
  bcast_S_S4096x4096 : S_.BroadcastsInDim S4096x4096 (![] : Fin 0 → Fin S4096x4096.rank)
  dot_S4096x128_S128x128_S4096x128_1_0_0_1_n_n_wf : DotDims.WF S4096x128 S128x128 S4096x128 [1] [0] [0] [1] [] []
  dot_S4x4096x32_S4x4096x32_S4x4096x4096_2_2_1_1_0_0_wf : DotDims.WF S4x4096x32 S4x4096x32 S4x4096x4096 [2] [2] [1] [1] [0] [0]
  dot_S128x4096_S4096x4096_S128x4096_1_0_0_1_n_n_wf : DotDims.WF S128x4096 S4096x4096 S128x4096 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4x4096x32_S4x4096x32_S4x4096x4096_2_2_1_1_0_0 : DotDims S4x4096x32 S4x4096x32 S4x4096x4096 where
  lhsContracting := [2]
  rhsContracting := [2]
  lhsNonContracting := [1]
  rhsNonContracting := [1]
  lhsBatch := [0]
  rhsBatch := [0]
  wf := dot_S4x4096x32_S4x4096x32_S4x4096x4096_2_2_1_1_0_0_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

class Facts : Prop extends Facts₀ where

variable [Facts]
-- ==== Proof.KerCases.lean ====
/-
  What one grid point does to the accumulator, as a value.

  At a grid point the body holds a [2,256,32] block of queries (two heads, 256 rows), a [2,32,4096] block of keys
  (the same two heads, all 4096 columns) and a [128,256] block of the input. It forms, for each of the two heads, the
  softmax weights of its 256 rows, adds the two heads' weights, multiplies the input block by that [256,4096] matrix
  and adds the product to the [128,4096] accumulator: `step`. At the first point of a run of 16 the accumulator is
  first set to zero (case A); at the last the stepped accumulator is also copied, with a leading unit axis, to the
  output block (case C); in between it is only stepped (case B). These hold for any reading of the float operations.
-/
import proofs.«101005_j65206193488148_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Bridge

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Head `j`'s [1,256,32] slice of the query block and [1,32,4096] slice of the key block (`j` = 0, 1). -/
abbrev q0 (x0 : Vec F S2x256x32 .f32) : Vec F S1x256x32 .f32 := View.ld x0 (Rect.unit ![0, 0, 0] ![1, 256, 32] inb_S2x256x32_S1x256x32_0_0_0)
abbrev q1 (x0 : Vec F S2x256x32 .f32) : Vec F S1x256x32 .f32 := View.ld x0 (Rect.unit ![1, 0, 0] ![1, 256, 32] inb_S2x256x32_S1x256x32_1_0_0)
abbrev k0 (x1 : Vec F S2x32x4096 .f32) : Vec F S1x32x4096 .f32 := View.ld x1 (Rect.unit ![0, 0, 0] ![1, 32, 4096] inb_S2x32x4096_S1x32x4096_0_0_0)
abbrev k1 (x1 : Vec F S2x32x4096 .f32) : Vec F S1x32x4096 .f32 := View.ld x1 (Rect.unit ![1, 0, 0] ![1, 32, 4096] inb_S2x32x4096_S1x32x4096_1_0_0)

/-- The accumulator after one point: the old accumulator plus the input block times the sum of the two heads' weights. -/
def step (x0 : Vec F S2x256x32 .f32) (x1 : Vec F S2x32x4096 .f32) (x2 : Vec F S128x256 .f32) (acc : Vec F S128x4096 .f32) : Vec F S128x4096 .f32 :=
  k0_pay1 x2 (k0_pay4 (q0 x0) (k0 x1)) (k0_pay5 (q1 x0) (k1 x1)) (k0_pay6 (q1 x0) (k1 x1)) acc

/-- In between (case B) the accumulator is stepped. -/
theorem sout_B (c : Dev nD) (i : grid0.Coords) (arg2 : Memref sig .tc .vmem S2x256x32 .f32) (harg2 : arg2.IsWhole) (arg3 : Memref sig .tc .vmem S2x32x4096 .f32) (harg3 : arg3.IsWhole) (arg4 : Memref sig .tc .vmem S128x256 .f32) (harg4 : arg4.IsWhole) (arg5 : Memref sig .tc .vmem S1x128x4096 .f32) (harg5 : arg5.IsWhole) (arg6 : Memref sig .tc .vmem S128x4096 .f32) (harg6 : arg6.IsWhole) (hc0 : ¬cond0_0 i) (hc1 : ¬cond0_1 i)
    (x0 : Vec F S2x256x32 .f32) (x1 : Vec F S2x32x4096 .f32) (x2 : Vec F S128x256 .f32) (xs0 : Vec F S128x4096 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S128x4096) hz2, View.ld_unit_zero (S := S128x256) hz2]
  rfl

/-- At the last point of a run (case C) the accumulator is stepped too, -/
theorem sout_C (c : Dev nD) (i : grid0.Coords) (arg2 : Memref sig .tc .vmem S2x256x32 .f32) (harg2 : arg2.IsWhole) (arg3 : Memref sig .tc .vmem S2x32x4096 .f32) (harg3 : arg3.IsWhole) (arg4 : Memref sig .tc .vmem S128x256 .f32) (harg4 : arg4.IsWhole) (arg5 : Memref sig .tc .vmem S1x128x4096 .f32) (harg5 : arg5.IsWhole) (arg6 : Memref sig .tc .vmem S128x4096 .f32) (harg6 : arg6.IsWhole) (hc0 : ¬cond0_0 i) (hc1 : cond0_1 i)
    (x0 : Vec F S2x256x32 .f32) (x1 : Vec F S2x32x4096 .f32) (x2 : Vec F S128x256 .f32) (xs0 : Vec F S128x4096 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S128x4096) hz2, View.ld_unit_zero (S := S128x256) hz2]
  rfl

/-- and the output block receives the stepped accumulator under a leading unit axis. -/
theorem out_C (c : Dev nD) (i : grid0.Coords) (arg2 : Memref sig .tc .vmem S2x256x32 .f32) (harg2 : arg2.IsWhole) (arg3 : Memref sig .tc .vmem S2x32x4096 .f32) (harg3 : arg3.IsWhole) (arg4 : Memref sig .tc .vmem S128x256 .f32) (harg4 : arg4.IsWhole) (arg5 : Memref sig .tc .vmem S1x128x4096 .f32) (harg5 : arg5.IsWhole) (arg6 : Memref sig .tc .vmem S128x4096 .f32) (harg6 : arg6.IsWhole) (hc0 : ¬cond0_0 i) (hc1 : cond0_1 i)
    (x0 : Vec F S2x256x32 .f32) (x1 : Vec F S2x32x4096 .f32) (x2 : Vec F S128x256 .f32) (xs0 : Vec F S128x4096 .f32) :
    out0_C_3 c i arg2 harg2 arg3 harg3 arg4 harg4 arg5 harg5 arg6 harg6 hc0 hc1 x0 x1 x2 xs0 = k0_pay2 (step x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S128x4096) _ hz2]
  simp only [View.readAt_eq_ld, harg2.read_unread, harg3.read_unread, harg4.read_unread, harg6.read_unread, View.ld_unit_zero (S := S128x4096) hz2, View.ld_unit_zero (S := S128x256) hz2]
  rfl

/-- At the first point of a run (case A) the accumulator is stepped from the zero block. -/
theorem sout_A (c : Dev nD) (i : grid0.Coords) (arg2 : Memref sig .tc .vmem S2x256x32 .f32) (harg2 : arg2.IsWhole) (arg3 : Memref sig .tc .vmem S2x32x4096 .f32) (harg3 : arg3.IsWhole) (arg4 : Memref sig .tc .vmem S128x256 .f32) (harg4 : arg4.IsWhole) (arg5 : Memref sig .tc .vmem S1x128x4096 .f32) (harg5 : arg5.IsWhole) (arg6 : Memref sig .tc .vmem S128x4096 .f32) (harg6 : arg6.IsWhole) (hc0 : cond0_0 i) (hc1 : ¬cond0_1 i)
    (x0 : Vec F S2x256x32 .f32) (x1 : Vec F S2x32x4096 .f32) (x2 : Vec F S128x256 .f32) :
    sout0_A_0 c i arg2 harg2 arg3 harg3 arg4 harg4 arg5 harg5 arg6 harg6 hc0 hc1 x0 x1 x2 = step x0 x1 x2 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S128x4096) hz2, View.readCov_unit_zero (S := S128x4096) _ hz2]
  simp only [View.readAt_eq_ld, harg2.read_unread, harg3.read_unread, harg4.read_unread, harg6.read_unread, View.ld_unit_zero (S := S128x4096) hz2, View.ld_unit_zero (S := S128x256) hz2]
  rfl

end Cert.KernelIdeal.Bridge

end
-- ==== Proof.AttnSpec.lean ====
/-
  Head-averaged attention applied to the raw input, stated over plain coordinate functions.

  `qa n a` and `ka n a` are the query and key projections of node `n` (128 columns: 4 heads of 32), `x d n` the input.
  For head `h` the score of the pair (n, m) is the dot product of the two nodes' 32 columns of that head times a fixed
  scale; each row of scores is turned into weights by the softmax (subtract the row's maximum, exponentiate, divide by
  the row's sum). The result at (d, m) is the sum over n of `x d n` times the mean over the 4 heads of the weights at (n, m).

  Two arrangements of that sum are named. `refOut` is the one just described. `kerOut` splits the heads into two pairs and
  the 4096 nodes into 16 blocks of 256: per pair and per block it multiplies `x` by the SUM of the pair's two weights,
  adds the blocks up, adds the two pairs, and only then takes the quarter. They agree when everything is a real number
  (distributivity of the extended reals needs it); that law is proved elsewhere.

  Also here: the predicate "this extended real is a real number" and its closure under the ring operations.
-/
import Idealize.ShloMosaic.PureOps.Ideal

noncomputable section

open scoped BigOperators

namespace Cert.AttnSpec

open Idealize.ShloMosaic

/-! ## Real extended reals -/

/-- `a` is (the image of) a real number. -/
def IsReal (a : EReal) : Prop := ∃ r : ℝ, a = (r : EReal)

theorem IsReal.coe (r : ℝ) : IsReal (r : EReal) := ⟨r, rfl⟩

theorem IsReal.zero : IsReal (0 : EReal) := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

/-- A finite sum of real extended reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-! ## Where a head's columns and a block's rows sit -/

/-- Column `e` of head `h` among the 128 projection columns. -/
def col (h : Fin 4) (e : Fin 32) : Fin 128 := ⟨32 * h.val + e.val, by omega⟩

/-- Row `r` of block `i` among the 4096 nodes. -/
def row (i : Fin 16) (r : Fin 256) : Fin 4096 := ⟨256 * i.val + r.val, by omega⟩

/-- Head `j` (0 or 1) of head pair `g`. -/
def pairHead (g : Fin 2) (j : Fin 2) : Fin 4 := ⟨2 * g.val + j.val, by omega⟩

/-! ## The softmax weights -/

/-- The scale of the scores: one fixed single-precision number (both programs print the same pattern; it is never evaluated). -/
def scale : EReal := Ideal.ofBits .f32 0x3E3504F3#32

variable (qa ka : Fin 4096 → Fin 128 → EReal)

/-- The scaled dot product of node `n`'s query and node `m`'s key on head `h`. -/
def score (h : Fin 4) (n m : Fin 4096) : EReal := (∑ e : Fin 32, qa n (col h e) * ka m (col h e)) * scale

/-- The largest score of row `n` on head `h` (a fold of `max` from minus infinity). -/
def rowMax (h : Fin 4) (n : Fin 4096) : EReal := (Finset.univ : Finset (Fin 4096)).fold max ⊥ (fun m => score qa ka h n m)

/-- The exponential of a score less its row's maximum. -/
def pexp (h : Fin 4) (n m : Fin 4096) : EReal := Ideal.exp (score qa ka h n m - rowMax qa ka h n)

/-- The sum of a row's exponentials. -/
def rowSum (h : Fin 4) (n : Fin 4096) : EReal := ∑ m : Fin 4096, pexp qa ka h n m

/-- The softmax weight of the pair (n, m) on head `h`. -/
def attn (h : Fin 4) (n m : Fin 4096) : EReal := Ideal.div (pexp qa ka h n m) (rowSum qa ka h n)

/-! ## The two arrangements of the result -/

variable (x : Fin 128 → Fin 4096 → EReal)

/-- The input times the mean over the heads of the weights. -/
def refOut (d : Fin 128) (m : Fin 4096) : EReal :=
  ∑ n : Fin 4096, x d n * Ideal.div (∑ h : Fin 4, attn qa ka h n m) 4

/-- One head pair's share from one block of 256 nodes: the input block times the sum of the pair's two weights. -/
def blockShare (g : Fin 2) (i : Fin 16) (d : Fin 128) (m : Fin 4096) : EReal :=
  ∑ r : Fin 256, x d (row i r) * (attn qa ka (pairHead g 0) (row i r) m + attn qa ka (pairHead g 1) (row i r) m)

/-- One head pair's share: its blocks' shares added up in order. -/
def pairShare (g : Fin 2) (d : Fin 128) (m : Fin 4096) : EReal :=
  ∑ i ∈ Finset.range 16, if h : i < 16 then blockShare qa ka x g ⟨i, h⟩ d m else 0

/-- The two pairs' shares added, then the quarter taken. -/
def kerOut (d : Fin 128) (m : Fin 4096) : EReal :=
  (∑ g : Fin 2, pairShare qa ka x g d m) * ((1 / 4 : ℝ) : EReal)

end Cert.AttnSpec

end
-- ==== Proof.KerHost.lean ====
/-
  The kernel program's host operations before the region, read at an index.

  Before the region the program forms the two projections q_all = x.T @ Qw + Qb and k_all = x.T @ Kw + Kb, each
  [4096,128], views each as [4096,4,32] (column 32h+e becomes (h, e)) and permutes the axes: the queries to
  [4,4096,32], the keys to [4,32,4096]. So the buffer of queries the region reads holds, at (h, n, e), entry
  (n, 32h+e) of q_all, and the buffer of keys holds, at (h, e, n), entry (n, 32h+e) of k_all. The projections are,
  term for term, the ones the reference program forms.
-/
import proofs.«101005_j65206193488148_2_alg».proof.Proof.KerCases
import proofs.«101005_j65206193488148_2_alg».proof.Proof.AttnSpec
import proofs.«101005_j65206193488148_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Host

open Cert.KernelIdeal Cert.KernelIdeal.Gen Cert.AttnSpec Idealize.ShloMosaic Idealize.ShloMosaic.TcCoe Idealize.SL.Sem Idealize.ShloMosaic.ValueIdx

/-- x.T @ W + b, as the kernel program's host operations compute it. -/
def proj {F : FTy → Type} [FloatOps F] (a0 : (⟨S128x4096, .f32⟩ : BufTy).Contents (Elt F))
    (w : (⟨S128x128, .f32⟩ : BufTy).Contents (Elt F)) (b : (⟨S128, .f32⟩ : BufTy).Contents (Elt F)) :
    (⟨S4096x128, .f32⟩ : BufTy).Contents (Elt F) :=
  addf (Host.dotGeneral dot_S4096x128_S128x128_S4096x128_1_0_0_1_n_n none
      (transpose S4096x128 [1, 0] a0 transposes_S128x4096_S4096x128_1_0) w)
    (broadcastInDim S4096x128 ![0, 1] bcast_S1x128_S4096x128_0_1 (broadcastInDim S1x128 ![1] bcast_S128_S1x128_1 b))

/-! ## The projection is the reference program's -/

/-- The query projection is the one the reference program forms (the same operations on the same shapes). -/
theorem proj_eq_ref_q (a0 : (⟨S128x4096, .f32⟩ : BufTy).Contents (Elt Ideal))
    (a1 : (⟨S128x128, .f32⟩ : BufTy).Contents (Elt Ideal)) (a2 : (⟨S128, .f32⟩ : BufTy).Contents (Elt Ideal)) :
    proj (F := Ideal) a0 a1 a2 = Cert.ReferenceIdeal.Read.val_main_v4 (F := Ideal) a0 a1 a2 := rfl

/-- The key projection is the one the reference program forms. -/
theorem proj_eq_ref_k (a0 : (⟨S128x4096, .f32⟩ : BufTy).Contents (Elt Ideal))
    (a3 : (⟨S128x128, .f32⟩ : BufTy).Contents (Elt Ideal)) (a4 : (⟨S128, .f32⟩ : BufTy).Contents (Elt Ideal)) :
    proj (F := Ideal) a0 a3 a4 = Cert.ReferenceIdeal.Read.val_main_v10 (F := Ideal) a0 a3 a4 := rfl

/-! ## Reading the head layouts at an index -/

/-- Entry (h, n, e) of the query layout [4,4096,32] is entry (n, 32h+e) of the [4096,128] projection: the transposition
    reads the reshaped array at (n, h, e), whose row-major position (4n+h)·32+e is that of (n, 32h+e), 128n+32h+e. -/
theorem qh_apply {α : Type} (X : S4096x128.Idx → α) (h : Fin 4) (n : Fin 4096) (e : Fin 32) :
    transpose S4x4096x32 [1, 0, 2] (shapeCast S4096x4x32 X shapeCasts_S4096x128_S4096x4x32)
      transposes_S4096x4x32_S4x4096x32_1_0_2 (ix3 h n e) = X (ix2 n (col h e)) := by
  rw [transpose_apply [1, 0, 2] _ transposes_S4096x4x32_S4x4096x32_1_0_2 (ix3 h n e) (ix3 n h e) (fun b => match b with
    | ⟨0, _⟩ => rfl
    | ⟨1, _⟩ => rfl
    | ⟨2, _⟩ => rfl)]
  exact shapeCast_apply X shapeCasts_S4096x128_S4096x4x32 (ix3 n h e) (ix2 n (col h e)) (by
    rw [Shape.rowMajor_val_two, Shape.rowMajor_val_three]
    show n.val * 128 + (32 * h.val + e.val) = (n.val * 4 + h.val) * 32 + e.val
    omega)

/-- Entry (h, e, n) of the key layout [4,32,4096] is entry (n, 32h+e) of the [4096,128] projection, likewise. -/
theorem kh_apply {α : Type} (X : S4096x128.Idx → α) (h : Fin 4) (e : Fin 32) (n : Fin 4096) :
    transpose S4x32x4096 [1, 2, 0] (shapeCast S4096x4x32 X shapeCasts_S4096x128_S4096x4x32)
      transposes_S4096x4x32_S4x32x4096_1_2_0 (ix3 h e n) = X (ix2 n (col h e)) := by
  rw [transpose_apply [1, 2, 0] _ transposes_S4096x4x32_S4x32x4096_1_2_0 (ix3 h e n) (ix3 n h e) (fun b => match b with
    | ⟨0, _⟩ => rfl
    | ⟨1, _⟩ => rfl
    | ⟨2, _⟩ => rfl)]
  exact shapeCast_apply X shapeCasts_S4096x128_S4096x4x32 (ix3 n h e) (ix2 n (col h e)) (by
    rw [Shape.rowMajor_val_two, Shape.rowMajor_val_three]
    show n.val * 128 + (32 * h.val + e.val) = (n.val * 4 + h.val) * 32 + e.val
    omega)

/-! ## What the region finds in the two head-layout buffers -/

variable {F : FTy → Type} [FloatOps F]

/-- The query buffer the region reads holds the projection x.T @ Qw + Qb, reshaped to [4096,4,32] and transposed to
    [4,4096,32]. -/
theorem V_qh (m : (ℓ : Loc nD τ sig) → Buf (Elt F) ℓ) (c : Dev nD) :
    (V m c main_v10 : S4x4096x32.Idx → Elt F .f32)
      = transpose S4x4096x32 [1, 0, 2]
          (shapeCast S4096x4x32 (proj (m ((c : Thread nD τ).loc main_arg0)) (m ((c : Thread nD τ).loc main_arg1))
            (m ((c : Thread nD τ).loc main_arg2))) shapeCasts_S4096x128_S4096x4x32)
          transposes_S4096x4x32_S4x4096x32_1_0_2 := by
  show StableHlo.after hostOps0 (fun b => m (c, b)) (Proc.devRef .tc main_v10) = _
  after_results
  rfl

/-- The key buffer the region reads holds the projection x.T @ Kw + Kb, reshaped to [4096,4,32] and transposed to
    [4,32,4096]. -/
theorem V_kh (m : (ℓ : Loc nD τ sig) → Buf (Elt F) ℓ) (c : Dev nD) :
    (V m c main_v12 : S4x32x4096.Idx → Elt F .f32)
      = transpose S4x32x4096 [1, 2, 0]
          (shapeCast S4096x4x32 (proj (m ((c : Thread nD τ).loc main_arg0)) (m ((c : Thread nD τ).loc main_arg3))
            (m ((c : Thread nD τ).loc main_arg4))) shapeCasts_S4096x128_S4096x4x32)
          transposes_S4096x4x32_S4x32x4096_1_2_0 := by
  show StableHlo.after hostOps0 (fun b => m (c, b)) (Proc.devRef .tc main_v12) = _
  after_results
  rfl

end Cert.KernelIdeal.Host

end
-- ==== Proof.KerArrays.lean ====
/-
  The three coordinate functions the specification is applied to, read off the kernel program's argument arrays:
  the query and key projections x.T @ W + b of each node, and the input itself.
-/
import proofs.«101005_j65206193488148_2_alg».proof.Proof.KerHost

set_option maxRecDepth 16384

noncomputable section

open Idealize.ShloMosaic Idealize.ShloMosaic.TcCoe Idealize.SL.Sem Idealize.ShloMosaic.ValueIdx

namespace Cert.KernelIdeal.Bridge

open Cert.KernelIdeal Cert.KernelIdeal.Gen Cert.AttnSpec Cert.KernelIdeal.Host

variable (m : (ℓ : Loc nD τ sig) → Buf (Elt Ideal) ℓ)

/-- Node `n`'s query projection, column `a`. -/
def qaOf (c : Dev nD) : Fin 4096 → Fin 128 → EReal := fun n a =>
  proj (F := Ideal) (m ((c : Thread nD τ).loc main_arg0)) (m ((c : Thread nD τ).loc main_arg1)) (m ((c : Thread nD τ).loc main_arg2)) (ix2 n a)

/-- Node `n`'s key projection, column `a`. -/
def kaOf (c : Dev nD) : Fin 4096 → Fin 128 → EReal := fun n a =>
  proj (F := Ideal) (m ((c : Thread nD τ).loc main_arg0)) (m ((c : Thread nD τ).loc main_arg3)) (m ((c : Thread nD τ).loc main_arg4)) (ix2 n a)

/-- The input at feature `d`, node `n`. -/
def xOf (c : Dev nD) : Fin 128 → Fin 4096 → EReal := fun d n => m ((c : Thread nD τ).loc main_arg0) (ix2 d n)

end Cert.KernelIdeal.Bridge

end
-- ==== Proof.AttnConsts.lean ====
/-
  The single-precision literals the two programs print, as extended reals: minus infinity is the bottom element,
  0.25 is the real 1/4, 4.0 is the real 4, and the scale of the scores is some real number (its value is never needed:
  both programs print the same pattern).
-/
import proofs.«101005_j65206193488148_2_alg».proof.Proof.AttnSpec
import Idealize.ShloMosaic.PureOps.Ideal.Laws

noncomputable section

namespace Cert.AttnConsts

open Idealize.ShloMosaic Cert.AttnSpec

/-- The pattern of minus infinity denotes the bottom of the extended reals. -/
theorem ofBits_neg_inf : Ideal.ofBits .f32 0xFF800000#32 = (⊥ : EReal) := by
  simp [Ideal.ofBits, Ideal.ieee]

/-- The pattern of 0.25 denotes the real 1/4. -/
theorem ofBits_quarter : Ideal.ofBits .f32 0x3E800000#32 = ((1 / 4 : ℝ) : EReal) := by
  simp [Ideal.ofBits, Ideal.ieee, -EReal.coe_mul]; norm_num

/-- The pattern of 4.0 denotes the real 4. -/
theorem ofBits_four : Ideal.ofBits .f32 0x40800000#32 = ((4 : ℝ) : EReal) := by
  simp [Ideal.ofBits, Ideal.ieee, -EReal.coe_mul]; norm_num

/-- The scale of the scores is a real number. -/
theorem scale_isReal : IsReal scale := by
  unfold scale IsReal
  simp [Ideal.ofBits, Ideal.ieee, -EReal.coe_mul]

end Cert.AttnConsts

end
-- ==== Proof.RefValue.lean ====
/-
  The reference computes the head-averaged attention in the arrangement called refOut.

  Stage by stage, from the scores up: the batched product of the two reshaped projections times the scale is the score of a
  pair of nodes on a head; the maximum of a row of scores taken from minus infinity is the row's maximum, and the further
  maximum with minus infinity changes nothing; the exponential of a score less its row's maximum, the sum of a row of
  those, and their quotient are the softmax weight; the sum of the four heads' weights divided by four is the mean; and the
  last product sums the input against that mean over the nodes.
-/
import proofs.«101005_j65206193488148_2_alg».proof.Proof.AttnSpec
import proofs.«101005_j65206193488148_2_alg».proof.Proof.AttnConsts
import proofs.«101005_j65206193488148_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Read Cert.AttnSpec Idealize.ShloMosaic Idealize.ShloMosaic.ValueIdx

variable (x0 : (⟨S128x4096, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal))

/-- The query projection by coordinates: node n, column a. -/
abbrev qa : Fin 4096 → Fin 128 → EReal := fun n a => val_main_v4 (F := Ideal) x0 x1 x2 (ix2 n a)

/-- The key projection by coordinates: node n, column a. -/
abbrev ka : Fin 4096 → Fin 128 → EReal := fun n a => val_main_v10 (F := Ideal) x0 x3 x4 (ix2 n a)

/-! ## Where the reshape and the transpose put a head's columns -/

/-- Splitting the 128 columns into 4 heads of 32 and bringing the head in front: entry (h, n, e) is column 32h+e of node n. -/
theorem idx_head (h : Fin 4) (n : Fin 4096) (e : Fin 32) :
    idx_main_v5 (idx_main_v6 (ix3 h n e)) = ix2 n (col h e) :=
  funext fun a => Fin.ext (by
    match a with
    | ⟨0, _⟩ => show ((n.val * 4 + h.val) * 32 + e.val) / 128 = n.val; omega
    | ⟨1, _⟩ => show ((n.val * 4 + h.val) * 32 + e.val) % 128 = 32 * h.val + e.val; omega)

/-- The query of head h at node n, column e of the head. -/
theorem q_head (h : Fin 4) (n : Fin 4096) (e : Fin 32) :
    val_main_v6 (F := Ideal) x0 x1 x2 (ix3 h n e) = qa x0 x1 x2 n (col h e) := by
  rw [val_main_v6_apply, val_main_v5_apply, idx_head]

/-- The key of head h at node n, column e of the head. -/
theorem k_head (h : Fin 4) (n : Fin 4096) (e : Fin 32) :
    val_main_v12 (F := Ideal) x0 x3 x4 (ix3 h n e) = ka x0 x3 x4 n (col h e) := by
  rw [val_main_v12_apply, val_main_v11_apply]
  exact congrArg _ (idx_head h n e)

/-! ## The scores -/

/-- The scaled batched product is the score. -/
theorem score_eq (h : Fin 4) (n m : Fin 4096) :
    val_main_v21 (F := Ideal) x0 x1 x2 x3 x4 (ix3 h n m) = score (qa x0 x1 x2) (ka x0 x3 x4) h n m := by
  rw [val_main_v21_apply, val_main_v19_apply, val_main_v20_apply, val_main_cst_apply, Ideal.mulf_def, Ideal.ofBits_def]
  unfold score scale
  refine congrArg (· * _) (Finset.sum_congr rfl fun e _ => ?_)
  have hl : lidx_main_v19 (ix3 h n m) e = ix3 h n e :=
    funext fun a => Fin.ext (by match a with | ⟨0, _⟩ => rfl | ⟨1, _⟩ => rfl | ⟨2, _⟩ => rfl)
  have hr : ridx_main_v19 (ix3 h n m) e = ix3 h m e :=
    funext fun a => Fin.ext (by match a with | ⟨0, _⟩ => rfl | ⟨1, _⟩ => rfl | ⟨2, _⟩ => rfl)
  rw [hl, hr, q_head, k_head]

/-! ## The row maximum -/

/-- The reduction over the last axis, read at (h, n): the fold of max from minus infinity over the row's scores. -/
theorem rowMax_eq (h : Fin 4) (n : Fin 4096) :
    val_main_v22 (F := Ideal) x0 x1 x2 x3 x4 (ix2 h n) = rowMax (qa x0 x1 x2) (ka x0 x3 x4) h n := by
  unfold val_main_v22
  have hred : S4x4096x4096.Reduces [2] S4x4096 := by decide
  rw [Host.reduce_eq_fold_single FloatOps.maximumf _ _ Facts₀.reducesTo_S4x4096x4096_S4x4096_d2 hred Facts₀.h_S_ (ix2 h n)]
  rw [val_main_cst_0_apply, Ideal.ofBits_def, Cert.AttnConsts.ofBits_neg_inf]
  unfold rowMax
  show Finset.fold max ⊥ (fun m : Fin 4096 => val_main_v21 (F := Ideal) x0 x1 x2 x3 x4 (hred.lift (ix2 h n) m)) Finset.univ = _
  refine Finset.fold_congr fun m _ => ?_
  have hi : hred.lift (ix2 h n) m = ix3 h n m :=
    funext fun a => Fin.ext (by match a with | ⟨0, _⟩ => rfl | ⟨1, _⟩ => rfl | ⟨2, _⟩ => rfl)
  rw [hi, score_eq]

/-! ## The softmax weights -/

/-- The exponential of a score less its row's maximum; the further maximum with minus infinity is the identity. -/
theorem pexp_eq (h : Fin 4) (n m : Fin 4096) :
    val_main_v28 (F := Ideal) x0 x1 x2 x3 x4 (ix3 h n m) = pexp (qa x0 x1 x2) (ka x0 x3 x4) h n m := by
  have hi : idx_main_v25 (idx_main_v26 (ix3 h n m)) = ix2 h n :=
    funext fun a => Fin.ext (by match a with | ⟨0, _⟩ => rfl | ⟨1, _⟩ => rfl)
  rw [val_main_v28_apply, val_main_v27_apply, val_main_v26_apply, val_main_v25_apply, val_main_v24_apply, val_main_v23_apply,
    val_main_cst_1_apply, hi, score_eq, rowMax_eq, Ideal.hostUnary_exp_def, Ideal.subf_def, Ideal.maximumf_def, Ideal.ofBits_def,
    Cert.AttnConsts.ofBits_neg_inf, max_bot_left]
  rfl

/-- The sum of a row's exponentials, from a zero initial value. -/
theorem rowSum_eq (h : Fin 4) (n : Fin 4096) :
    val_main_v29 (F := Ideal) x0 x1 x2 x3 x4 (ix2 h n) = rowSum (qa x0 x1 x2) (ka x0 x3 x4) h n := by
  rw [val_main_v29_apply, val_main_cst_2_apply, Ideal.ofBits_def, Ideal.ofBits_zero_f32, zero_add]
  unfold rowSum
  refine Finset.sum_congr rfl fun m _ => ?_
  have hi : idx_main_v29 (ix2 h n) m = ix3 h n m :=
    funext fun a => Fin.ext (by match a with | ⟨0, _⟩ => rfl | ⟨1, _⟩ => rfl | ⟨2, _⟩ => rfl)
  rw [hi, pexp_eq]

/-- The quotient of an exponential by its row's sum is the softmax weight. -/
theorem attn_eq (h : Fin 4) (n m : Fin 4096) :
    val_main_v32 (F := Ideal) x0 x1 x2 x3 x4 (ix3 h n m) = attn (qa x0 x1 x2) (ka x0 x3 x4) h n m := by
  have hi : idx_main_v30 (idx_main_v31 (ix3 h n m)) = ix2 h n :=
    funext fun a => Fin.ext (by match a with | ⟨0, _⟩ => rfl | ⟨1, _⟩ => rfl)
  rw [val_main_v32_apply, val_main_v31_apply, val_main_v30_apply, hi, pexp_eq, rowSum_eq, Ideal.hostDivf_def]
  rfl

/-! ## The mean over the heads and the final product -/

/-- The sum of the four heads' weights, from a zero initial value, divided by four. -/
theorem mean_eq (n m : Fin 4096) :
    val_main_v35 (F := Ideal) x0 x1 x2 x3 x4 (ix2 n m)
      = Ideal.div (∑ h : Fin 4, attn (qa x0 x1 x2) (ka x0 x3 x4) h n m) 4 := by
  rw [val_main_v35_apply, val_main_v33_apply, val_main_cst_3_apply, val_main_v34_apply, val_main_cst_4_apply,
    Ideal.hostDivf_def, Ideal.ofBits_def, Ideal.ofBits_def, Ideal.ofBits_zero_f32, Cert.AttnConsts.ofBits_four, zero_add]
  have h4 : ((4 : ℝ) : EReal) = 4 := rfl
  rw [h4]
  refine congrArg (Ideal.div · 4) (Finset.sum_congr rfl fun h _ => ?_)
  have hi : idx_main_v33 (ix2 n m) h = ix3 h n m :=
    funext fun a => Fin.ext (by match a with | ⟨0, _⟩ => rfl | ⟨1, _⟩ => rfl | ⟨2, _⟩ => rfl)
  rw [hi, attn_eq]

/-- The reference's result: the input summed against the mean of the weights over the nodes. -/
theorem ref_eq_refOut (d : Fin 128) (m : Fin 4096) :
    val_main_v36 (F := Ideal) x0 x1 x2 x3 x4 (ix2 d m)
      = refOut (fun n a => val_main_v4 (F := Ideal) x0 x1 x2 (ix2 n a)) (fun n a => val_main_v10 (F := Ideal) x0 x3 x4 (ix2 n a))
          (fun d n => x0 (ix2 d n)) d m := by
  rw [val_main_v36_apply]
  unfold refOut
  refine Finset.sum_congr rfl fun n _ => ?_
  have hl : lidx_main_v36 (ix2 d m) n = ix2 d n :=
    funext fun a => Fin.ext (by match a with | ⟨0, _⟩ => rfl | ⟨1, _⟩ => rfl)
  have hr : ridx_main_v36 (ix2 d m) n = ix2 n m :=
    funext fun a => Fin.ext (by match a with | ⟨0, _⟩ => rfl | ⟨1, _⟩ => rfl)
  rw [hl, hr, mean_eq]

end Cert.RefValue

end
-- ==== Proof.AttnLaw.lean ====
/-
  The two arrangements of head-averaged attention agree on real inputs.

  With real queries, keys and scale every score is a real number. A row's maximum is attained (the row is a nonempty
  finite family), so it is real as well; a score less the maximum is real, and its exponential is a positive real.
  A row's sum is therefore a positive real, in particular not zero, and each softmax weight is the real quotient.

  Once the weights and the input are real, both arrangements are images of real numbers, and the equality is the
  distributive law in the reals: the sum over the 4096 nodes is the sum over 16 blocks of 256, the sum over the four
  heads is the sum over two pairs of two, and a common factor of a quarter moves through the sums.
-/
import proofs.«101005_j65206193488148_2_alg».proof.Proof.AttnSpec

noncomputable section

open scoped BigOperators

namespace Cert.AttnLaw

open Cert.AttnSpec
open Idealize.ShloMosaic

/-! ## The inclusion of the reals and finite sums -/

/-- The inclusion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest member of a nonempty finite family of real extended reals is one of them, hence real. -/
theorem fold_max_isReal {ι : Type*} (s : Finset ι) (hs : s.Nonempty) (f : ι → EReal)
    (hf : ∀ i ∈ s, IsReal (f i)) : IsReal (s.fold max ⊥ f) := by
  have h : s.fold max ⊥ f = s.sup f := rfl
  rw [h]
  obtain ⟨i, hi, hsup⟩ := Finset.exists_mem_eq_sup s hs f
  rw [hsup]
  exact hf i hi

/-! ## The softmax weights are real -/

section Weights

variable (qa ka : Fin 4096 → Fin 128 → EReal)

/-- A score is real: a finite sum of products of reals, times a real scale. -/
theorem score_isReal (hs : IsReal scale) (hq : ∀ n a, IsReal (qa n a)) (hk : ∀ n a, IsReal (ka n a))
    (h : Fin 4) (n m : Fin 4096) : IsReal (score qa ka h n m) :=
  (IsReal.sum _ _ fun e _ => (hq n (col h e)).mul (hk m (col h e))).mul hs

/-- A row's maximum is real: it is one of the row's scores. -/
theorem rowMax_isReal (hs : IsReal scale) (hq : ∀ n a, IsReal (qa n a)) (hk : ∀ n a, IsReal (ka n a))
    (h : Fin 4) (n : Fin 4096) : IsReal (rowMax qa ka h n) :=
  fold_max_isReal _ ⟨0, Finset.mem_univ _⟩ _ fun m _ => score_isReal qa ka hs hq hk h n m

/-- The exponential of a score less its row's maximum is a positive real. -/
theorem pexp_pos (hs : IsReal scale) (hq : ∀ n a, IsReal (qa n a)) (hk : ∀ n a, IsReal (ka n a))
    (h : Fin 4) (n m : Fin 4096) : ∃ p : ℝ, 0 < p ∧ pexp qa ka h n m = (p : EReal) := by
  obtain ⟨a, ha⟩ := score_isReal qa ka hs hq hk h n m
  obtain ⟨b, hb⟩ := rowMax_isReal qa ka hs hq hk h n
  refine ⟨Real.exp (a - b), Real.exp_pos _, ?_⟩
  rw [pexp, ha, hb, ← EReal.coe_sub, Ideal.exp_coe]

/-- A row's sum of exponentials is a positive real. -/
theorem rowSum_pos (hs : IsReal scale) (hq : ∀ n a, IsReal (qa n a)) (hk : ∀ n a, IsReal (ka n a))
    (h : Fin 4) (n : Fin 4096) : ∃ l : ℝ, 0 < l ∧ rowSum qa ka h n = (l : EReal) := by
  choose p hp hpe using fun m => pexp_pos qa ka hs hq hk h n m
  refine ⟨∑ m : Fin 4096, p m, Finset.sum_pos (fun m _ => hp m) ⟨0, Finset.mem_univ _⟩, ?_⟩
  rw [rowSum, coe_sum]
  exact Finset.sum_congr rfl fun m _ => hpe m

/-- A softmax weight is real: a real exponential divided by a nonzero real sum. -/
theorem attn_isReal (hs : IsReal scale) (hq : ∀ n a, IsReal (qa n a)) (hk : ∀ n a, IsReal (ka n a))
    (h : Fin 4) (n m : Fin 4096) : IsReal (attn qa ka h n m) := by
  obtain ⟨p, -, hp⟩ := pexp_pos qa ka hs hq hk h n m
  obtain ⟨l, hl, hle⟩ := rowSum_pos qa ka hs hq hk h n
  refine ⟨p * (1 / l), ?_⟩
  rw [attn, hp, hle, Ideal.div_coe hl.ne', EReal.coe_mul]

end Weights

/-! ## The identity in the reals -/

/-- The first head of the first pair is head 0. -/
theorem pairHead_zero_zero : pairHead 0 0 = 0 := Fin.ext rfl
/-- The second head of the first pair is head 1. -/
theorem pairHead_zero_one : pairHead 0 1 = 1 := Fin.ext rfl
/-- The first head of the second pair is head 2. -/
theorem pairHead_one_zero : pairHead 1 0 = 2 := Fin.ext rfl
/-- The second head of the second pair is head 3. -/
theorem pairHead_one_one : pairHead 1 1 = 3 := Fin.ext rfl

/-- A sum over the 4096 nodes is the sum over the 16 blocks of the sums over each block's 256 rows. -/
theorem sum_blocks (f : Fin 4096 → ℝ) : ∑ n : Fin 4096, f n = ∑ i : Fin 16, ∑ r : Fin 256, f (row i r) := by
  rw [← Fintype.sum_prod_type']
  symm
  refine Fintype.sum_equiv (finProdFinEquiv : Fin 16 × Fin 256 ≃ Fin 4096) _ _ fun p => ?_
  congr 1
  apply Fin.ext
  simp only [row, finProdFinEquiv_apply_val]
  omega

/-- The block-and-pair arrangement equals the plain one for real weights and a real input: regroup the nodes into
    blocks and the heads into pairs, then distribute. -/
theorem real_law (xr : Fin 128 → Fin 4096 → ℝ) (ar : Fin 4 → Fin 4096 → Fin 4096 → ℝ) (d : Fin 128) (m : Fin 4096) :
    (∑ g : Fin 2, ∑ i : Fin 16, ∑ r : Fin 256,
        xr d (row i r) * (ar (pairHead g 0) (row i r) m + ar (pairHead g 1) (row i r) m)) * (1 / 4)
      = ∑ n : Fin 4096, xr d n * ((∑ h : Fin 4, ar h n m) * (1 / 4)) := by
  rw [sum_blocks, Fin.sum_univ_two, ← Finset.sum_add_distrib, Finset.sum_mul]
  refine Finset.sum_congr rfl fun i _ => ?_
  rw [← Finset.sum_add_distrib, Finset.sum_mul]
  refine Finset.sum_congr rfl fun r _ => ?_
  rw [Fin.sum_univ_four, pairHead_zero_zero, pairHead_zero_one, pairHead_one_zero, pairHead_one_one]
  ring

/-! ## The law -/

section Law

variable (qa ka : Fin 4096 → Fin 128 → EReal) (x : Fin 128 → Fin 4096 → EReal)

/-- With real weights and a real input the block-and-pair arrangement is the image of its real counterpart. -/
theorem kerOut_coe (xr : Fin 128 → Fin 4096 → ℝ) (ar : Fin 4 → Fin 4096 → Fin 4096 → ℝ)
    (hx : ∀ d n, x d n = (xr d n : EReal)) (ha : ∀ h n m, attn qa ka h n m = (ar h n m : EReal))
    (d : Fin 128) (m : Fin 4096) :
    kerOut qa ka x d m = (((∑ g : Fin 2, ∑ i : Fin 16, ∑ r : Fin 256,
        xr d (row i r) * (ar (pairHead g 0) (row i r) m + ar (pairHead g 1) (row i r) m)) * (1 / 4) : ℝ) : EReal) := by
  rw [kerOut, EReal.coe_mul, coe_sum]
  congr 1
  refine Finset.sum_congr rfl fun g _ => ?_
  rw [pairShare, Finset.sum_range, coe_sum]
  refine Finset.sum_congr rfl fun i _ => ?_
  rw [dif_pos i.isLt, blockShare, coe_sum]
  refine Finset.sum_congr rfl fun r _ => ?_
  rw [hx, ha, ha, EReal.coe_mul, EReal.coe_add]

/-- With real weights and a real input the plain arrangement is the image of its real counterpart; the division by 4
    is the product with a quarter. -/
theorem refOut_coe (xr : Fin 128 → Fin 4096 → ℝ) (ar : Fin 4 → Fin 4096 → Fin 4096 → ℝ)
    (hx : ∀ d n, x d n = (xr d n : EReal)) (ha : ∀ h n m, attn qa ka h n m = (ar h n m : EReal))
    (d : Fin 128) (m : Fin 4096) :
    refOut qa ka x d m = ((∑ n : Fin 4096, xr d n * ((∑ h : Fin 4, ar h n m) * (1 / 4)) : ℝ) : EReal) := by
  have h4 : (4 : EReal) = ((4 : ℝ) : EReal) := by norm_cast
  rw [refOut, coe_sum]
  refine Finset.sum_congr rfl fun n _ => ?_
  rw [hx, h4, Ideal.div_coe (by norm_num : (4 : ℝ) ≠ 0), EReal.coe_mul, EReal.coe_mul, coe_sum]
  congr 2
  exact Finset.sum_congr rfl fun h _ => ha h n m

/-- The two arrangements agree when the scale, the queries, the keys and the input are real. -/
theorem kerOut_eq_refOut (hs : IsReal scale) (hq : ∀ n a, IsReal (qa n a)) (hk : ∀ n a, IsReal (ka n a))
    (hx : ∀ d n, IsReal (x d n)) (d : Fin 128) (m : Fin 4096) : kerOut qa ka x d m = refOut qa ka x d m := by
  choose xr hxr using hx
  choose ar har using fun h n m => attn_isReal qa ka hs hq hk h n m
  rw [kerOut_coe qa ka x xr ar hxr har, refOut_coe qa ka x xr ar hxr har, real_law]

end Law

end Cert.AttnLaw

end
-- ==== Proof.FiniteInputs.lean ====
/-
  Finiteness of the inputs and of the two projections.

  The precondition says of each float argument that every entry `a` satisfies |a| < +∞, and takes the conjunction
  of these statements over all entries and all arguments. Over the extended reals |a| = max a (-a) is below +∞
  exactly when `a` is neither +∞ nor -∞, that is, when `a` is a real number. So the precondition makes every
  entry of every argument real.

  The query and key projections are x.T @ W + b: each entry is a finite sum of products of entries of real arrays
  plus one more real entry, hence real.
-/
import proofs.«101005_j65206193488148_2_alg».proof.Proof.AttnSpec
import proofs.«101005_j65206193488148_2_alg».proof.Pre_finite_inputs
import proofs.«101005_j65206193488148_2_alg».proof.Proof.Gen.Pre_finite_inputs
import proofs.«101005_j65206193488148_2_alg».proof.Proof.Gen.ReferenceIdeal.Read
import Idealize.ShloMosaic.Lib.ReduceAll
import Idealize.ShloMosaic.Lib.ValueIdx
import Idealize.ShloMosaic.PureOps.Ideal.Laws

noncomputable section

open scoped BigOperators

namespace Cert.FiniteInputs

open Cert.AttnSpec Idealize.ShloMosaic

/-! ## One entry: |a| < +∞ means `a` is real -/

/-- The single-precision pattern of plus infinity denotes the top of the extended reals. -/
theorem ofBits_pos_inf : Ideal.ofBits .f32 0x7F800000#32 = (⊤ : EReal) := by
  simp [Ideal.ofBits, Ideal.ieee]

/-- An extended real whose absolute value max a (-a) is below plus infinity is a real number:
    for a = -∞ the maximum is -(-∞) = +∞, for a = +∞ it is +∞ itself. -/
theorem isReal_of_abs_lt_top (a : EReal) (h : max a (-a) < ⊤) : IsReal a := by
  induction a using EReal.rec with
  | bot => simp at h
  | coe r => exact IsReal.coe r
  | top => simp at h

/-- A decidable proposition whose truth value, as a one-bit word, is 1 holds. -/
theorem of_ofBool_decide {p : Prop} [Decidable p] (h : BitVec.ofBool (decide p) = 1#1) : p := by
  by_contra hn
  rw [decide_eq_false hn] at h
  exact absurd h (by decide)

/-! ## One array: the conjunction over all entries -/

/-- The scalar shape has a single index. -/
theorem scalar_idx_subsingleton : Subsingleton (⟨0, ![]⟩ : Shape).Idx := ⟨fun a b => funext fun d => d.elim0⟩

/-- If the conjunction over all entries of an array `v` of the statements |v i| < +∞ is true, every entry of `v`
    is real. The conjunction is a fold of "and" from "true" over the whole array into a scalar, so each entry's
    statement is true; the statement at entry i compares max (v i) (-(v i)) with +∞. -/
theorem all_real_of_reduce {s : Shape} {axes : List (Fin s.rank)} (v : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf v) (broadcastInDim s ![] hb (constant (F := Ideal) ⟨0, ![]⟩ .f32 0x7F800000#32)))
          (constantI ⟨0, ![]⟩ 1 1#1) hr hu ValueIdx.ix0 = 1#1) (i : s.Idx) : IsReal (v i) := by
  haveI := scalar_idx_subsingleton
  have p := Host.reduce_andi_all _ _ hr hu ValueIdx.ix0 e i
  apply isReal_of_abs_lt_top
  have p' : BitVec.ofBool (decide (max (v i) (-(v i)) < Ideal.ofBits .f32 0x7F800000#32)) = 1#1 := p
  rw [ofBits_pos_inf] at p'
  exact of_ofBool_decide p'

/-! ## The precondition makes the arguments real -/

section Args

open Cert.Pre_finite_inputs

/-- The precondition, the conjunction over the seven arguments of "every entry has |a| < +∞", makes every entry of
    the first five arguments a real number. -/
theorem args_real (a0 : (⟨S128x4096, .f32⟩ : BufTy).Contents (Elt Ideal))
    (a1 : (⟨S128x128, .f32⟩ : BufTy).Contents (Elt Ideal)) (a2 : (⟨S128, .f32⟩ : BufTy).Contents (Elt Ideal))
    (a3 : (⟨S128x128, .f32⟩ : BufTy).Contents (Elt Ideal)) (a4 : (⟨S128, .f32⟩ : BufTy).Contents (Elt Ideal))
    (a5 : (⟨S128x128, .f32⟩ : BufTy).Contents (Elt Ideal)) (a6 : (⟨S128, .f32⟩ : BufTy).Contents (Elt Ideal))
    (h : Cert.Pre_finite_inputs.fn (F := Ideal) a0 a1 a2 a3 a4 a5 a6 = (fun _ => 1#1)) :
    (∀ i, IsReal (a0 i)) ∧ (∀ i, IsReal (a1 i)) ∧ (∀ i, IsReal (a2 i)) ∧ (∀ i, IsReal (a3 i)) ∧ (∀ i, IsReal (a4 i)) := by
  have e := congrFun h ValueIdx.ix0
  unfold Cert.Pre_finite_inputs.fn Cert.Pre_finite_inputs.fn_part1 at e
  simp only [andi, IntOp.andi_eq_one] at e
  obtain ⟨⟨⟨⟨⟨⟨e0, e1⟩, e2⟩, e3⟩, e4⟩, -⟩, -⟩ := e
  exact ⟨all_real_of_reduce a0 _ _ _ e0, all_real_of_reduce a1 _ _ _ e1, all_real_of_reduce a2 _ _ _ e2,
    all_real_of_reduce a3 _ _ _ e3, all_real_of_reduce a4 _ _ _ e4⟩

end Args

/-! ## The two projections are real -/

section Projections

open Cert.ReferenceIdeal Cert.ReferenceIdeal.Read

/-- The query projection x.T @ Qw + Qb of real arrays is real: a finite sum of products of reals plus a real. -/
theorem qall_real (x0 : (⟨S128x4096, .f32⟩ : BufTy).Contents (Elt Ideal))
    (x1 : (⟨S128x128, .f32⟩ : BufTy).Contents (Elt Ideal)) (x2 : (⟨S128, .f32⟩ : BufTy).Contents (Elt Ideal))
    (h0 : ∀ i, IsReal (x0 i)) (h1 : ∀ i, IsReal (x1 i)) (h2 : ∀ i, IsReal (x2 i)) (i : S4096x128.Idx) :
    IsReal (Cert.ReferenceIdeal.Read.val_main_v4 (F := Ideal) x0 x1 x2 i) := by
  rw [val_main_v4_apply, val_main_v1_apply, val_main_v3_apply, val_main_v2_apply]
  simp only [val_main_v0_apply]
  exact IsReal.add (IsReal.sum _ _ fun k _ => IsReal.mul (h0 _) (h1 _)) (h2 _)

/-- The key projection x.T @ Kw + Kb of real arrays is real, for the same reason. -/
theorem kall_real (x0 : (⟨S128x4096, .f32⟩ : BufTy).Contents (Elt Ideal))
    (x3 : (⟨S128x128, .f32⟩ : BufTy).Contents (Elt Ideal)) (x4 : (⟨S128, .f32⟩ : BufTy).Contents (Elt Ideal))
    (h0 : ∀ i, IsReal (x0 i)) (h3 : ∀ i, IsReal (x3 i)) (h4 : ∀ i, IsReal (x4 i)) (i : S4096x128.Idx) :
    IsReal (Cert.ReferenceIdeal.Read.val_main_v10 (F := Ideal) x0 x3 x4 i) := by
  rw [val_main_v10_apply, val_main_v7_apply, val_main_v9_apply, val_main_v8_apply]
  simp only [val_main_v0_apply]
  exact IsReal.add (IsReal.sum _ _ fun k _ => IsReal.mul (h0 _) (h3 _)) (h4 _)

end Projections

end Cert.FiniteInputs

end
-- ==== Proof.Claims.lean ====
/-
  The claims of the certificate, given the kernel's run.

  Both idealized programs compute, over the extended reals, the input times the head-averaged softmax weights of the
  projected queries and keys. The reference adds over all 4096 nodes at once and takes the mean over the four heads
  inside the sum; the kernel adds the two heads of a pair first, then the 16 blocks of 256 nodes, then the two pairs,
  and takes the quarter last. When every input is a real number (the precondition) the projections, the scores and the
  weights are real, and the two arrangements are the same real sum. The frames of the three programs are the generated
  ones; what remains a hypothesis here is that the kernel's run ends at the block-and-pair arrangement.
-/
import proofs.«101005_j65206193488148_2_alg».proof.Defs
import proofs.«101005_j65206193488148_2_alg».proof.Proof.Gen.Kernel.Frame
import proofs.«101005_j65206193488148_2_alg».proof.Proof.Gen.KernelIdeal.Frame
import proofs.«101005_j65206193488148_2_alg».proof.Proof.Gen.ReferenceIdeal.Run
import proofs.«101005_j65206193488148_2_alg».proof.Proof.Gen.ReferenceIdeal.Read
import proofs.«101005_j65206193488148_2_alg».proof.Proof.Gen.Pre_finite_inputs
import proofs.«101005_j65206193488148_2_alg».proof.Proof.Gen.Kernel
import proofs.«101005_j65206193488148_2_alg».proof.Proof.Gen.KernelIdeal
import proofs.«101005_j65206193488148_2_alg».proof.Proof.Gen.ReferenceIdeal
import proofs.«101005_j65206193488148_2_alg».proof.Proof.KerArrays
import proofs.«101005_j65206193488148_2_alg».proof.Proof.RefValue
import proofs.«101005_j65206193488148_2_alg».proof.Proof.AttnLaw
import proofs.«101005_j65206193488148_2_alg».proof.Proof.AttnConsts
import proofs.«101005_j65206193488148_2_alg».proof.Proof.FiniteInputs
import proofs.«101005_j65206193488148_2_alg».proof.Proof.KerHost

set_option maxRecDepth 16384

noncomputable section

open Idealize.ShloMosaic Idealize.ShloMosaic.TcCoe Idealize.SL.Sem Idealize.ShloMosaic.ValueIdx

namespace Cert.Proof.AttnClaims

open Cert.AttnSpec Cert.KernelIdeal.Bridge

/-! ## The frames -/

/-- The kernel program runs and leaves its arguments unchanged. -/
theorem frame_p : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The idealized reference program runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation was rewritten between the kernel program and its idealization. -/
theorem preserves : Cert.preserves_Kernel_KernelIdeal := trivial

/-! ## The two results agree -/

/-- What the kernel's run has to deliver: its result array at the block-and-pair arrangement of the specification. -/
def KernelRuns : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v16)
          = (fun i => kerOut (qaOf m c) (kaOf m c) (xOf m c) (i 0) (i 1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

/-- From memories agreeing on the arguments, all of them real numbers, the two idealized programs end with equal
    results: the reference's result is the specification's direct arrangement of the same projections and input, and
    the two arrangements agree on real data. -/
theorem algebraic (hk : KernelRuns) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => (fun i => kerOut (qaOf m c) (kaOf m c) (xOf m c) (i 0) (i 1)), hk m ρ, ?_⟩
  refine (θ_run Cert.ReferenceIdeal.defs _ _).mono (fun _ h c => ⟨(h c).1.trans ?_, (h c).2⟩)
    (Cert.ReferenceIdeal.Value.run (F := Ideal) m' ρ')
  -- every entry of the first five arguments is real, hence so are the projections
  obtain ⟨r0, r1, r2, r3, r4⟩ := Cert.FiniteInputs.args_real _ _ _ _ _ _ _ (hpre c)
  have hq : ∀ n a, IsReal (qaOf m c n a) := fun n a => Cert.FiniteInputs.qall_real _ _ _ r0 r1 r2 (ix2 n a)
  have hkr : ∀ n a, IsReal (kaOf m c n a) := fun n a => Cert.FiniteInputs.kall_real _ _ _ r0 r3 r4 (ix2 n a)
  have hx : ∀ d n, IsReal (xOf m c d n) := fun d n => r0 (ix2 d n)
  rw [Cert.ReferenceIdeal.Read.val_main_v36_eq m' c, (hagree c).1, (hagree c).2.1, (hagree c).2.2.1,
    (hagree c).2.2.2.1, (hagree c).2.2.2.2.1]
  funext i
  obtain ⟨d, n, rfl⟩ : ∃ d n, i = ix2 d n := ⟨i 0, i 1, eq_ix2 i⟩
  refine (Cert.RefValue.ref_eq_refOut _ _ _ _ _ d n).trans ?_
  exact (Cert.AttnLaw.kerOut_eq_refOut (qaOf m c) (kaOf m c) (xOf m c) Cert.AttnConsts.scale_isReal hq hkr hx d n).symm

end Cert.Proof.AttnClaims

end
-- ==== Proof.KerBlocks.lean ====
/-
  The three input blocks of a grid point, read at coordinates.

  The grid has 32 points; point `t` belongs to head pair `t / 16` and handles row block `t % 16`. Its query block is
  heads 2(t/16), 2(t/16)+1 and rows 256(t%16) … 256(t%16)+255 of the [4,4096,32] query array; its key block is the same
  two heads of the [4,32,4096] key array, whole; its input block is columns 256(t%16) … of the [128,4096] input.
  A block's coordinate is always (block index) × (block size) + (coordinate inside the block).
-/
import proofs.«101005_j65206193488148_2_alg».proof.Proof.KerCases
import proofs.«101005_j65206193488148_2_alg».proof.Proof.AttnSpec
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.AttnSpec

variable {F : FTy → Type} [FloatOps F]
variable (m : (ℓ : Loc nD τ sig) → Buf (Elt F) ℓ)

/-- A grid point is below 32. -/
theorem pt_lt (t : Fin cfg0.N) : t.val < 32 := lt_of_lt_of_eq t.isLt N_0

/-- The head pair of grid point `t`. -/
def grp (t : Fin cfg0.N) : Fin 2 := ⟨t.val / 16, by have := pt_lt t; omega⟩

/-- The row block of grid point `t`. -/
def blkI (t : Fin cfg0.N) : Fin 16 := ⟨t.val % 16, by omega⟩

/-- Where each window's block sits at point `t`, in blocks: decided once over the 32 points. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = t.val % 16
    ∧ win0_3.index t (0 : Fin 3) = t.val / 16 ∧ win0_3.index t (1 : Fin 3) = 0 ∧ win0_3.index t (2 : Fin 3) = 0 :=
  (by decide +kernel : ∀ t : Fin grid0.N, _)

/-- The input block at point `t`: columns of row block `t % 16`. -/
theorem iblk_x (c : Dev nD) (t : Fin cfg0.N) (d : Fin 128) (r : Fin 256) :
    (iblk m c 2 t : Vec F S128x256 .f32) (ix2 d r) = V m c main_arg0 (ix2 d (row (blkI t) r)) := by
  obtain ⟨-, -, -, -, -, -, h20, h21, -⟩ := idx_facts t
  unfold iblk
  rw [View.read_apply]
  show V m c main_arg0 _ = V m c main_arg0 _
  congr 1
  funext a
  apply Fin.ext
  match a with
  | ⟨0, _⟩ => show win0_2.index t 0 * 128 + 1 * d.val = d.val; rw [h20]; omega
  | ⟨1, _⟩ => show win0_2.index t 1 * 256 + 1 * r.val = 256 * (t.val % 16) + r.val; rw [h21]; omega

/-- The query block at point `t`: the pair's two heads, the rows of row block `t % 16`. -/
theorem iblk_q (c : Dev nD) (t : Fin cfg0.N) (j : Fin 2) (r : Fin 256) (e : Fin 32) :
    (iblk m c 0 t : Vec F S2x256x32 .f32) (ix3 j r e) = V m c main_v10 (ix3 (pairHead (grp t) j) (row (blkI t) r) e) := by
  obtain ⟨h00, h01, h02, -⟩ := idx_facts t
  unfold iblk
  rw [View.read_apply]
  show V m c main_v10 _ = V m c main_v10 _
  congr 1
  funext a
  apply Fin.ext
  match a with
  | ⟨0, _⟩ => show win0_0.index t 0 * 2 + 1 * j.val = 2 * (t.val / 16) + j.val; rw [h00]; omega
  | ⟨1, _⟩ => show win0_0.index t 1 * 256 + 1 * r.val = 256 * (t.val % 16) + r.val; rw [h01]; omega
  | ⟨2, _⟩ => show win0_0.index t 2 * 32 + 1 * e.val = e.val; rw [h02]; omega

/-- The key block at point `t`: the pair's two heads, every column. -/
theorem iblk_k (c : Dev nD) (t : Fin cfg0.N) (j : Fin 2) (e : Fin 32) (k : Fin 4096) :
    (iblk m c 1 t : Vec F S2x32x4096 .f32) (ix3 j e k) = V m c main_v12 (ix3 (pairHead (grp t) j) e k) := by
  obtain ⟨-, -, -, h10, h11, h12, -⟩ := idx_facts t
  unfold iblk
  rw [View.read_apply]
  show V m c main_v12 _ = V m c main_v12 _
  congr 1
  funext a
  apply Fin.ext
  match a with
  | ⟨0, _⟩ => show win0_1.index t 0 * 2 + 1 * j.val = 2 * (t.val / 16) + j.val; rw [h10]; omega
  | ⟨1, _⟩ => show win0_1.index t 1 * 32 + 1 * e.val = e.val; rw [h11]; omega
  | ⟨2, _⟩ => show win0_1.index t 2 * 4096 + 1 * k.val = k.val; rw [h12]; omega

end Cert.KernelIdeal.Bridge

end
-- ==== Proof.KerChain.lean ====
/-
  The accumulator over a run of 16 grid points.

  Within one head pair the 16 row blocks are visited in order. At the first the accumulator is reset and stepped, at
  each later one it is stepped from what the point before left. So after the point at offset j of its run the
  accumulator is the reset value stepped j times: a fold over the run, obtained by induction on the offset and never
  by listing the grid. At the run's last point the same stepped accumulator is also what the output block receives.
-/
import proofs.«101005_j65206193488148_2_alg».proof.Proof.KerBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.AttnSpec

variable {F : FTy → Type} [FloatOps F]
variable (m : (ℓ : Loc nD τ sig) → Buf (Elt F) ℓ)

/-- The accumulator a run starts with at point `n`: the zero block stepped by that point's blocks. -/
abbrev resetAt (c : Dev nD) (n : ℕ) (h : n < cfg0.N) : Vec F S128x4096 .f32 :=
  step (F := F) (iblk m c 0 ⟨n, h⟩) (iblk m c 1 ⟨n, h⟩) (iblk m c 2 ⟨n, h⟩) (k0_pay3 (F := F))

/-- One more point: the accumulator stepped by point `n`'s blocks. -/
abbrev stepAt (c : Dev nD) (n : ℕ) (h : n < cfg0.N) (acc : Vec F S128x4096 .f32) : Vec F S128x4096 .f32 :=
  step (F := F) (iblk m c 0 ⟨n, h⟩) (iblk m c 1 ⟨n, h⟩) (iblk m c 2 ⟨n, h⟩) acc

/-- At the first point of a run the accumulator is the reset value. -/
theorem acc_reset (c : Dev nD) (n : ℕ) (h : n < cfg0.N) (h0 : n % 16 = 0) :
    (outsAt0 m c n h).2 = resetAt m c n h := by
  have h1 : ¬(⟨n, h⟩ : Fin cfg0.N).val % 16 = 15 := by dsimp only; omega
  rw [outsAt0_A m c ⟨n, h⟩ h0 h1]
  dsimp only
  exact sout_A (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At every other point it is what the point before left, stepped. -/
theorem acc_step (c : Dev nD) (n : ℕ) (h : n + 1 < cfg0.N) (h0 : ¬(n + 1) % 16 = 0) :
    (outsAt0 m c (n + 1) h).2 = stepAt m c (n + 1) h (outsAt0 m c n (Nat.lt_of_succ_lt h)).2 := by
  by_cases h1 : (n + 1) % 16 = 15
  · rw [outsAt0_C m c ⟨n + 1, h⟩ h0 h1]
    dsimp only
    exact sout_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact sout_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2

/-- So after any point the accumulator is the fold over the point's run, up to the point. -/
theorem acc_fold (c : Dev nD) (t : ℕ) (ht : t < cfg0.N) (h' : 16 * (t / 16) + t % 16 < cfg0.N) :
    (outsAt0 m c t ht).2 = Pipeline.accAt (resetAt m c) (stepAt m c) (16 * (t / 16)) (t % 16) h' :=
  Pipeline.eq_accAt_of_mod (fun n h => (outsAt0 m c n h).2) 16 (resetAt m c) (stepAt m c)
    (fun n h h0 => acc_reset m c n h h0) (fun n h h0 => acc_step m c n h h0) (by decide) t ht h'

/-- At the last point of a run the output block receives the accumulator under a leading unit axis. -/
theorem out_last (c : Dev nD) (t : Fin cfg0.N) (h1 : t.val % 16 = 15) :
    (outsAt0 m c t.val t.isLt).1 = k0_pay2 (outsAt0 m c t.val t.isLt).2 := by
  have h0 : ¬t.val % 16 = 0 := by omega
  rw [outsAt0_C m c t h0 h1]
  dsimp only
  rw [out_C, sout_C]

end Cert.KernelIdeal.Bridge

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.KerStep.lean ====
/-
  One grid point's step of the accumulator, read at an entry, on the extended reals.

  The body holds a [2,256,32] block of queries and a [2,32,4096] block of keys: two heads. For head j the score of
  (r, k) is the dot product over the 32 columns of the head's query row r and key column k, times the scale; a row's
  scores are turned into weights by the softmax (subtract the row's maximum, exponentiate, divide by the row's sum).
  The step adds to the accumulator at (d, k) the sum over the 256 rows r of the input block at (d, r) times the sum of
  the two heads' weights at (r, k).

  Each operation is read at coordinates: a head's slice of a block reads the block at that head; a cast that drops a
  leading unit axis reads at (0, r, c); a matrix product into a zero tile is the sum of products over the contracted
  axis; a row maximum is the fold of max from minus infinity and a row sum the sum over the row; a row statistic kept
  as a column and broadcast back reads the statistic of the entry's row.
-/
import proofs.«101005_j65206193488148_2_alg».proof.Proof.KerCases
import proofs.«101005_j65206193488148_2_alg».proof.Proof.AttnSpec
import proofs.«101005_j65206193488148_2_alg».proof.Proof.AttnConsts
import proofs.«101005_j65206193488148_2_alg».proof.Proof.LibKeepdims
import proofs.«101005_j65206193488148_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.KernelIdeal.Bridge

open Cert.KernelIdeal Cert.KernelIdeal.Gen Cert.AttnSpec Idealize.ShloMosaic Idealize.ShloMosaic.ValueIdx

/-! ## The softmax weights of the two heads, from the blocks -/

/-- Head j's scores from the blocks: the dot product over the 32 columns, times the scale. -/
def bscore (x0 : Vec Ideal S2x256x32 .f32) (x1 : Vec Ideal S2x32x4096 .f32) (j : Fin 2) (r : Fin 256) (k : Fin 4096) : EReal :=
  (∑ e : Fin 32, x0 (ix3 j r e) * x1 (ix3 j e k)) * scale

/-- The largest score of row r of head j (a fold of max from minus infinity). -/
def bmax (x0 : Vec Ideal S2x256x32 .f32) (x1 : Vec Ideal S2x32x4096 .f32) (j : Fin 2) (r : Fin 256) : EReal :=
  (Finset.univ : Finset (Fin 4096)).fold max ⊥ (fun k => bscore x0 x1 j r k)

/-- The exponential of a score less its row's maximum. -/
def bexp (x0 : Vec Ideal S2x256x32 .f32) (x1 : Vec Ideal S2x32x4096 .f32) (j : Fin 2) (r : Fin 256) (k : Fin 4096) : EReal :=
  Ideal.exp (bscore x0 x1 j r k - bmax x0 x1 j r)

/-- The sum of a row's exponentials. -/
def bsum (x0 : Vec Ideal S2x256x32 .f32) (x1 : Vec Ideal S2x32x4096 .f32) (j : Fin 2) (r : Fin 256) : EReal :=
  ∑ k : Fin 4096, bexp x0 x1 j r k

/-- The softmax weight of (r, k) on head j. -/
def bweight (x0 : Vec Ideal S2x256x32 .f32) (x1 : Vec Ideal S2x32x4096 .f32) (j : Fin 2) (r : Fin 256) (k : Fin 4096) : EReal :=
  Ideal.div (bexp x0 x1 j r k) (bsum x0 x1 j r)

/-! ## A head's slice of a block -/

/-- The first head's query slice reads the query block at head 0. -/
theorem q0_apply (x0 : Vec Ideal S2x256x32 .f32) (r : Fin 256) (e : Fin 32) :
    q0 (F := Ideal) x0 (ix3 (0 : Fin 1) r e) = x0 (ix3 (0 : Fin 2) r e) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * e.val = e.val; omega

/-- The second head's query slice reads the query block at head 1. -/
theorem q1_apply (x0 : Vec Ideal S2x256x32 .f32) (r : Fin 256) (e : Fin 32) :
    q1 (F := Ideal) x0 (ix3 (0 : Fin 1) r e) = x0 (ix3 (1 : Fin 2) r e) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * e.val = e.val; omega

/-- The first head's key slice reads the key block at head 0. -/
theorem k0_apply (x1 : Vec Ideal S2x32x4096 .f32) (e : Fin 32) (k : Fin 4096) :
    k0 (F := Ideal) x1 (ix3 (0 : Fin 1) e k) = x1 (ix3 (0 : Fin 2) e k) := by
  show x1 _ = x1 _
  refine congrArg x1 (funext fun a => Fin.ext ?_)
  match a with
  | ⟨0, _⟩ => rfl
  | ⟨1, _⟩ => show 0 + 1 * e.val = e.val; omega
  | ⟨2, _⟩ => show 0 + 1 * k.val = k.val; omega

/-- The second head's key slice reads the key block at head 1. -/
theorem k1_apply (x1 : Vec Ideal S2x32x4096 .f32) (e : Fin 32) (k : Fin 4096) :
    k1 (F := Ideal) x1 (ix3 (0 : Fin 1) e k) = x1 (ix3 (1 : Fin 2) e k) := by
  show x1 _ = x1 _
  refine congrArg x1 (funext fun a => Fin.ext ?_)
  match a with
  | ⟨0, _⟩ => rfl
  | ⟨1, _⟩ => show 0 + 1 * e.val = e.val; omega
  | ⟨2, _⟩ => show 0 + 1 * k.val = k.val; omega

/-! ## One head's scores -/

/-- One head's scaled product of its query slice and key slice, as the body forms it. -/
def smat (v4 : FVec Ideal S1x256x32 .f32) (v6 : FVec Ideal S1x32x4096 .f32) : FVec Ideal S256x4096 .f32 :=
  mulf (matmul dot_S256x32_S32x4096_S256x4096_1_0_0_1_n_n none (shapeCast S256x32 v4 shapeCasts_S1x256x32_S256x32)
      (shapeCast S32x4096 v6 shapeCasts_S1x32x4096_S32x4096) (constant (F := Ideal) S256x4096 .f32 0x00000000#32))
    (broadcast S256x4096 (Scalar.ofBits (F := Ideal) .f32 0x3E3504F3#32))

/-- The scaled product at (r, k): the dot product over the 32 columns, times the scale. -/
theorem smat_apply (v4 : FVec Ideal S1x256x32 .f32) (v6 : FVec Ideal S1x32x4096 .f32) (r : Fin 256) (k : Fin 4096) :
    smat v4 v6 (ix2 r k) = (∑ e : Fin 32, v4 (ix3 (0 : Fin 1) r e) * v6 (ix3 (0 : Fin 1) e k)) * scale := by
  unfold smat
  refine (mulf_apply _ _ _).trans ?_
  refine congrArg₂ (· * ·) ?_ rfl
  refine (Cert.LibPlainDot.matmul_plain_zero_apply (m := 256) (k := 32) (n := 4096) none _ _ r k).trans ?_
  refine Finset.sum_congr rfl fun e _ => ?_
  rw [shapeCast_1ab_ab_apply, shapeCast_1ab_ab_apply]

/-- The first head's scaled product is its scores. -/
theorem smat_head0 (x0 : Vec Ideal S2x256x32 .f32) (x1 : Vec Ideal S2x32x4096 .f32) (r : Fin 256) (k : Fin 4096) :
    smat (q0 (F := Ideal) x0) (k0 (F := Ideal) x1) (ix2 r k) = bscore x0 x1 0 r k := by
  refine (smat_apply _ _ r k).trans ?_
  unfold bscore
  refine congrArg (· * scale) (Finset.sum_congr rfl fun e _ => ?_)
  rw [q0_apply, k0_apply]

/-- The second head's scaled product is its scores. -/
theorem smat_head1 (x0 : Vec Ideal S2x256x32 .f32) (x1 : Vec Ideal S2x32x4096 .f32) (r : Fin 256) (k : Fin 4096) :
    smat (q1 (F := Ideal) x0) (k1 (F := Ideal) x1) (ix2 r k) = bscore x0 x1 1 r k := by
  refine (smat_apply _ _ r k).trans ?_
  unfold bscore
  refine congrArg (· * scale) (Finset.sum_congr rfl fun e _ => ?_)
  rw [q1_apply, k1_apply]

/-! ## The row maximum, the exponentials, the row sum -/

/-- The maxima of a matrix's rows, as the body forms them. -/
def rmax (s : FVec Ideal S256x4096 .f32) : FVec Ideal S256 .f32 :=
  multiReduction (F := Ideal) .maximumf [1] S256 s 0xFF800000#32 reduces_S256x4096_S256 (.inl rfl) rfl

/-- At r it is the fold of max, from minus infinity, over row r. -/
theorem rmax_apply (s : FVec Ideal S256x4096 .f32) (t : Fin 256 → Fin 4096 → EReal) (hs : ∀ r k, s (ix2 r k) = t r k)
    (r : Fin 256) : rmax s (ix1 r) = (Finset.univ : Finset (Fin 4096)).fold max ⊥ (fun c => t r c) := by
  unfold rmax
  refine (rowMax_apply (a := 256) (b := 4096) s _ reduces_S256x4096_S256 _ _ r).trans ?_
  rw [Cert.AttnConsts.ofBits_neg_inf]
  exact congrArg (fun f : Fin 4096 → EReal => (Finset.univ : Finset (Fin 4096)).fold max ⊥ f) (funext fun c => hs r c)

/-- The sums of a matrix's rows, as the body forms them. -/
def rsum (p : FVec Ideal S256x4096 .f32) : FVec Ideal S256 .f32 :=
  multiReduction (F := Ideal) .add [1] S256 p 0x00000000#32 reduces_S256x4096_S256 (.inl rfl) rfl

/-- At r it is the sum of row r. -/
theorem rsum_apply (p : FVec Ideal S256x4096 .f32) (r : Fin 256) : rsum p (ix1 r) = ∑ c : Fin 4096, p (ix2 r c) := by
  unfold rsum
  exact rowSum_apply (a := 256) (b := 4096) p _ reduces_S256x4096_S256 _ _ r

/-- A row statistic kept as a column and broadcast back over the 4096 columns, as the body forms it. -/
def bcol (v : FVec Ideal S256 .f32) : FVec Ideal S256x4096 .f32 :=
  broadcastTo S256x4096 (shapeCast S256x1 v shapeCasts_S256_S256x1) broadcasts_S256x1_S256x4096

/-- At (r, k) it is the statistic of row r. -/
theorem bcol_apply (v : FVec Ideal S256 .f32) (r : Fin 256) (k : Fin 4096) : bcol v (ix2 r k) = v (ix1 r) := by
  unfold bcol
  rw [broadcastTo_a1_ab_apply, shapeCast_a_a1_apply]

/-- A matrix less its rows' maxima, exponentiated, as the body forms it. -/
def emat (s : FVec Ideal S256x4096 .f32) : FVec Ideal S256x4096 .f32 := exp (subf s (bcol (rmax s)))

/-- At (r, k) it is the exponential of the entry less the fold of max, from minus infinity, over row r. -/
theorem emat_apply (s : FVec Ideal S256x4096 .f32) (t : Fin 256 → Fin 4096 → EReal) (hs : ∀ r k, s (ix2 r k) = t r k)
    (r : Fin 256) (k : Fin 4096) :
    emat s (ix2 r k) = Ideal.exp (t r k - (Finset.univ : Finset (Fin 4096)).fold max ⊥ (fun c => t r c)) := by
  unfold emat
  show Ideal.exp (s (ix2 r k) - bcol (rmax s) (ix2 r k)) = _
  rw [bcol_apply, rmax_apply s t hs r, hs]

/-! ## The payloads at an entry -/

/-- The exponentials' payload is the exponential matrix of the scaled product. -/
theorem pay5_eq (v20 : FVec Ideal S1x256x32 .f32) (v22 : FVec Ideal S1x32x4096 .f32) :
    k0_pay5 (F := Ideal) v20 v22 = emat (smat v20 v22) := rfl

/-- The row sums' payload is the row sums of the exponential matrix. -/
theorem pay6_eq (v20 : FVec Ideal S1x256x32 .f32) (v22 : FVec Ideal S1x32x4096 .f32) :
    k0_pay6 (F := Ideal) v20 v22 = rsum (emat (smat v20 v22)) := rfl

/-- The weights' payload is the exponential matrix divided by its row sums. -/
theorem pay4_eq (v4 : FVec Ideal S1x256x32 .f32) (v6 : FVec Ideal S1x32x4096 .f32) :
    k0_pay4 (F := Ideal) v4 v6 = divf (emat (smat v4 v6)) (bcol (rsum (emat (smat v4 v6)))) := rfl

/-- The first head's exponential matrix is its exponentials. -/
theorem emat_head0 (x0 : Vec Ideal S2x256x32 .f32) (x1 : Vec Ideal S2x32x4096 .f32) (r : Fin 256) (k : Fin 4096) :
    emat (smat (q0 (F := Ideal) x0) (k0 (F := Ideal) x1)) (ix2 r k) = bexp x0 x1 0 r k :=
  emat_apply _ (bscore x0 x1 0) (smat_head0 x0 x1) r k

/-- The second head's exponential matrix is its exponentials. -/
theorem emat_head1 (x0 : Vec Ideal S2x256x32 .f32) (x1 : Vec Ideal S2x32x4096 .f32) (r : Fin 256) (k : Fin 4096) :
    emat (smat (q1 (F := Ideal) x0) (k1 (F := Ideal) x1)) (ix2 r k) = bexp x0 x1 1 r k :=
  emat_apply _ (bscore x0 x1 1) (smat_head1 x0 x1) r k

/-- The first head's row sums are its sums of exponentials. -/
theorem rsum_head0 (x0 : Vec Ideal S2x256x32 .f32) (x1 : Vec Ideal S2x32x4096 .f32) (r : Fin 256) :
    rsum (emat (smat (q0 (F := Ideal) x0) (k0 (F := Ideal) x1))) (ix1 r) = bsum x0 x1 0 r :=
  (rsum_apply _ r).trans (Finset.sum_congr rfl fun c _ => emat_head0 x0 x1 r c)

/-- The second head's row sums are its sums of exponentials. -/
theorem rsum_head1 (x0 : Vec Ideal S2x256x32 .f32) (x1 : Vec Ideal S2x32x4096 .f32) (r : Fin 256) :
    rsum (emat (smat (q1 (F := Ideal) x0) (k1 (F := Ideal) x1))) (ix1 r) = bsum x0 x1 1 r :=
  (rsum_apply _ r).trans (Finset.sum_congr rfl fun c _ => emat_head1 x0 x1 r c)

/-- The weights' payload on the first head's slices, at (r, k), is the first head's weight. -/
theorem pay4_head0 (x0 : Vec Ideal S2x256x32 .f32) (x1 : Vec Ideal S2x32x4096 .f32) (r : Fin 256) (k : Fin 4096) :
    k0_pay4 (F := Ideal) (q0 (F := Ideal) x0) (k0 (F := Ideal) x1) (ix2 r k) = bweight x0 x1 0 r k := by
  rw [pay4_eq]
  show Ideal.div (emat (smat (q0 (F := Ideal) x0) (k0 (F := Ideal) x1)) (ix2 r k))
    (bcol (rsum (emat (smat (q0 (F := Ideal) x0) (k0 (F := Ideal) x1)))) (ix2 r k)) = _
  rw [bcol_apply, emat_head0, rsum_head0]
  rfl

/-- The exponentials' payload on the second head's slices, at (r, k), is the second head's exponential. -/
theorem pay5_head1 (x0 : Vec Ideal S2x256x32 .f32) (x1 : Vec Ideal S2x32x4096 .f32) (r : Fin 256) (k : Fin 4096) :
    k0_pay5 (F := Ideal) (q1 (F := Ideal) x0) (k1 (F := Ideal) x1) (ix2 r k) = bexp x0 x1 1 r k := by
  rw [pay5_eq]
  exact emat_head1 x0 x1 r k

/-- The row sums' payload on the second head's slices, at r, is the second head's sum of exponentials. -/
theorem pay6_head1 (x0 : Vec Ideal S2x256x32 .f32) (x1 : Vec Ideal S2x32x4096 .f32) (r : Fin 256) :
    k0_pay6 (F := Ideal) (q1 (F := Ideal) x0) (k1 (F := Ideal) x1) (ix1 r) = bsum x0 x1 1 r := by
  rw [pay6_eq]
  exact rsum_head1 x0 x1 r

/-- The accumulator's payload: the old accumulator plus the input block times the first matrix plus the second
    divided by its row statistic. -/
theorem pay1_eq (v3 : FVec Ideal S128x256 .f32) (v19 v31 : FVec Ideal S256x4096 .f32) (v32 : FVec Ideal S256 .f32)
    (v38 : FVec Ideal S128x4096 .f32) :
    k0_pay1 (F := Ideal) v3 v19 v31 v32 v38
      = addf v38 (matmul dot_S128x256_S256x4096_S128x4096_1_0_0_1_n_n none v3 (addf v19 (divf v31 (bcol v32)))
          (constant (F := Ideal) S128x4096 .f32 0x00000000#32)) :=
  shapeCast_self _ _

/-- The accumulator's payload at (d, k). -/
theorem pay1_apply (v3 : FVec Ideal S128x256 .f32) (v19 v31 : FVec Ideal S256x4096 .f32) (v32 : FVec Ideal S256 .f32)
    (v38 : FVec Ideal S128x4096 .f32) (d : Fin 128) (k : Fin 4096) :
    k0_pay1 (F := Ideal) v3 v19 v31 v32 v38 (ix2 d k)
      = v38 (ix2 d k) + ∑ r : Fin 256, v3 (ix2 d r) * (v19 (ix2 r k) + Ideal.div (v31 (ix2 r k)) (v32 (ix1 r))) := by
  rw [pay1_eq]
  refine (addf_apply _ _ _).trans ?_
  refine congrArg (v38 (ix2 d k) + ·) ?_
  refine (Cert.LibPlainDot.matmul_plain_zero_apply (m := 128) (k := 256) (n := 4096) none _ _ d k).trans ?_
  refine Finset.sum_congr rfl fun r _ => ?_
  show v3 (ix2 d r) * (v19 (ix2 r k) + Ideal.div (v31 (ix2 r k)) (bcol v32 (ix2 r k))) = _
  rw [bcol_apply]

/-! ## The step, the zero block and the copy to the output block -/

/-- One point's step at (d, k): the accumulator plus the sum over the 256 rows of the input block times the sum of the
    two heads' weights. -/
theorem step_apply (x0 : Vec Ideal S2x256x32 .f32) (x1 : Vec Ideal S2x32x4096 .f32) (x2 : Vec Ideal S128x256 .f32)
    (acc : Vec Ideal S128x4096 .f32) (d : Fin 128) (k : Fin 4096) :
    step (F := Ideal) x0 x1 x2 acc (ix2 d k)
      = acc (ix2 d k) + ∑ r : Fin 256, x2 (ix2 d r) * (bweight x0 x1 0 r k + bweight x0 x1 1 r k) := by
  unfold step
  refine (pay1_apply _ _ _ _ _ d k).trans ?_
  refine congrArg (acc (ix2 d k) + ·) (Finset.sum_congr rfl fun r _ => ?_)
  rw [pay4_head0, pay5_head1, pay6_head1]
  rfl

/-- The block the accumulator is set to at the first point of a run is zero everywhere. -/
theorem pay3_apply (i : S128x4096.Idx) : k0_pay3 (F := Ideal) i = 0 := by
  have e : k0_pay3 (F := Ideal) = broadcast S128x4096 (Scalar.ofBits (F := Ideal) .f32 0x00000000#32) := shapeCast_self _ _
  rw [e]
  exact Ideal.ofBits_zero_f32

/-- The copy to the output block reads, under its leading unit axis, the accumulator. -/
theorem pay2_apply (v : Vec Ideal S128x4096 .f32) (d : Fin 128) (k : Fin 4096) :
    k0_pay2 (F := Ideal) v (ix3 (0 : Fin 1) d k) = v (ix2 d k) := by
  unfold k0_pay2
  exact shapeCast_ab_1ab_apply (a := 128) (b := 4096) v _ 0 d k

end Cert.KernelIdeal.Bridge

end
-- ==== Proof.KerShare.lean ====
/-
  What a flushing point writes is its head pair's share.

  At grid point t = 16 g + i the step adds, at entry (d, k), the sum over the block's 256 rows of the input entry times
  the two heads' softmax weights. Read through the blocks, the input entry is x(d, 256 i + r), and the two heads' weights
  are the specification's weights of heads 2g and 2g+1 at row 256 i + r: the block's scores are the same dot products of
  the same projections, so the row maxima, exponentials, row sums and quotients agree term by term. Hence the point's
  addend is the specification's share of block i for pair g; the accumulator after the run's last point is zero plus
  the 16 shares in order; and that is what the output block receives.
-/
import proofs.«101005_j65206193488148_2_alg».proof.Proof.KerChain
import proofs.«101005_j65206193488148_2_alg».proof.Proof.KerStep
import proofs.«101005_j65206193488148_2_alg».proof.Proof.KerArrays

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.AttnSpec Cert.KernelIdeal.Host

/-- Blocks whose entries are the projections' entries of head `h` and row block `i` give the specification's weights. -/
theorem bweight_of (x0 : Vec Ideal S2x256x32 .f32) (x1 : Vec Ideal S2x32x4096 .f32) (qa ka : Fin 4096 → Fin 128 → EReal)
    (j : Fin 2) (h : Fin 4) (i : Fin 16)
    (hq : ∀ (r : Fin 256) (e : Fin 32), x0 (ix3 j r e) = qa (row i r) (col h e))
    (hk : ∀ (e : Fin 32) (k : Fin 4096), x1 (ix3 j e k) = ka k (col h e)) (r : Fin 256) (k : Fin 4096) :
    bweight x0 x1 j r k = attn qa ka h (row i r) k := by
  have hs : ∀ (r : Fin 256) (k : Fin 4096), bscore x0 x1 j r k = score qa ka h (row i r) k := fun r k => by
    unfold bscore score; simp only [hq, hk]
  have hm : ∀ r : Fin 256, bmax x0 x1 j r = rowMax qa ka h (row i r) := fun r => by
    unfold bmax rowMax; simp only [hs]
  have he : ∀ (r : Fin 256) (k : Fin 4096), bexp x0 x1 j r k = pexp qa ka h (row i r) k := fun r k => by
    unfold bexp pexp; rw [hs, hm]
  have hl : ∀ r : Fin 256, bsum x0 x1 j r = rowSum qa ka h (row i r) := fun r => by
    unfold bsum rowSum; simp only [he]
  unfold bweight attn; rw [he, hl]

variable (m : (ℓ : Loc nD τ sig) → Buf (Elt Ideal) ℓ)

/-- The query block's entries are the query projection's, of the point's pair and row block. -/
theorem qblock_eq (c : Dev nD) (t : Fin cfg0.N) (j : Fin 2) (r : Fin 256) (e : Fin 32) :
    (iblk m c 0 t : Vec Ideal S2x256x32 .f32) (ix3 j r e) = qaOf m c (row (blkI t) r) (col (pairHead (grp t) j) e) :=
  (iblk_q m c t j r e).trans ((congrFun (V_qh m c) _).trans (qh_apply _ _ _ _))

/-- The key block's entries are the key projection's, of the point's pair. -/
theorem kblock_eq (c : Dev nD) (t : Fin cfg0.N) (j : Fin 2) (e : Fin 32) (k : Fin 4096) :
    (iblk m c 1 t : Vec Ideal S2x32x4096 .f32) (ix3 j e k) = kaOf m c k (col (pairHead (grp t) j) e) :=
  (iblk_k m c t j e k).trans ((congrFun (V_kh m c) _).trans (kh_apply _ _ _ _))

/-- The input block's entries are the input's, of the point's row block. -/
theorem xblock_eq (c : Dev nD) (t : Fin cfg0.N) (d : Fin 128) (r : Fin 256) :
    (iblk m c 2 t : Vec Ideal S128x256 .f32) (ix2 d r) = xOf m c d (row (blkI t) r) :=
  (iblk_x m c t d r).trans (congrFun (V_main_arg0 m c) _)

/-- What one step adds at entry (d, k), from the point's three blocks. -/
def addendOf (x0 : Vec Ideal S2x256x32 .f32) (x1 : Vec Ideal S2x32x4096 .f32) (x2 : Vec Ideal S128x256 .f32)
    (d : Fin 128) (k : Fin 4096) : EReal :=
  ∑ r : Fin 256, x2 (ix2 d r) * (bweight x0 x1 0 r k + bweight x0 x1 1 r k)

/-- What point `n` adds at entry (d, k); zero past the grid. -/
def addendN (c : Dev nD) (n : ℕ) (d : Fin 128) (k : Fin 4096) : EReal :=
  if h : n < cfg0.N then addendOf (iblk m c 0 ⟨n, h⟩) (iblk m c 1 ⟨n, h⟩) (iblk m c 2 ⟨n, h⟩) d k else 0

/-- The same as a function of the array index. -/
def addendAt (c : Dev nD) (n : ℕ) (i : S128x4096.Idx) : EReal := addendN m c n (i 0) (i 1)

/-- A point's addend is the specification's share of its row block for its head pair. -/
theorem addendN_eq (c : Dev nD) (t : Fin cfg0.N) (d : Fin 128) (k : Fin 4096) :
    addendN m c t.val d k = blockShare (qaOf m c) (kaOf m c) (xOf m c) (grp t) (blkI t) d k := by
  unfold addendN
  rw [dif_pos t.isLt]
  unfold addendOf blockShare
  refine Finset.sum_congr rfl fun r _ => ?_
  rw [xblock_eq m c t d r,
    bweight_of (iblk m c 0 t) (iblk m c 1 t) (qaOf m c) (kaOf m c) 0 (pairHead (grp t) 0) (blkI t)
      (fun r e => qblock_eq m c t 0 r e) (fun e k => kblock_eq m c t 0 e k) r k,
    bweight_of (iblk m c 0 t) (iblk m c 1 t) (qaOf m c) (kaOf m c) 1 (pairHead (grp t) 1) (blkI t)
      (fun r e => qblock_eq m c t 1 r e) (fun e k => kblock_eq m c t 1 e k) r k]

/-- The reset value at an entry: zero plus the point's addend. -/
theorem resetAt_apply (c : Dev nD) (n : ℕ) (h : n < cfg0.N) (i : S128x4096.Idx) :
    resetAt m c n h i = (fun _ => (0 : EReal)) i + addendAt m c n i := by
  obtain ⟨d, k, rfl⟩ : ∃ (d : Fin 128) (k : Fin 4096), i = ix2 d k := ⟨i 0, i 1, eq_ix2 i⟩
  unfold resetAt
  refine (step_apply (iblk m c 0 ⟨n, h⟩) (iblk m c 1 ⟨n, h⟩) (iblk m c 2 ⟨n, h⟩) (k0_pay3 (F := Ideal)) d k).trans ?_
  rw [pay3_apply]
  show _ = (0 : EReal) + addendN m c n d k
  unfold addendN
  rw [dif_pos h]
  rfl

/-- A step at an entry: the old entry plus the point's addend. -/
theorem stepAt_apply (c : Dev nD) (n : ℕ) (h : n < cfg0.N) (acc : Vec Ideal S128x4096 .f32) (i : S128x4096.Idx) :
    stepAt m c n h acc i = acc i + addendAt m c n i := by
  obtain ⟨d, k, rfl⟩ : ∃ (d : Fin 128) (k : Fin 4096), i = ix2 d k := ⟨i 0, i 1, eq_ix2 i⟩
  unfold stepAt
  refine (step_apply (iblk m c 0 ⟨n, h⟩) (iblk m c 1 ⟨n, h⟩) (iblk m c 2 ⟨n, h⟩) acc d k).trans ?_
  show _ = acc (ix2 d k) + addendN m c n d k
  unfold addendN
  rw [dif_pos h]
  rfl

/-- At the last point of a run the output block holds the pair's share: zero plus the 16 blocks' shares in order. -/
theorem out_flush (c : Dev nD) (t : Fin cfg0.N) (h15 : t.val % 16 = 15) (d : Fin 128) (k : Fin 4096) :
    ((outsAt0 m c t.val t.isLt).1 : Vec Ideal S1x128x4096 .f32) (ix3 (0 : Fin 1) d k)
      = pairShare (qaOf m c) (kaOf m c) (xOf m c) (grp t) d k := by
  have hN := pt_lt t
  have h' : 16 * (t.val / 16) + t.val % 16 < cfg0.N := by rw [Nat.div_add_mod]; exact t.isLt
  rw [out_last m c t h15, pay2_apply, acc_fold m c t.val t.isLt h',
    Pipeline.accAt_add_apply (resetAt m c) (stepAt m c) (fun _ => (0 : EReal)) (addendAt m c) (16 * (t.val / 16)) 15
      (fun h i => resetAt_apply m c _ h i) (fun n h acc i _ _ => stepAt_apply m c n h acc i) (t.val % 16) (by omega) h' (ix2 d k)]
  rw [h15, zero_add]
  unfold pairShare
  refine Finset.sum_congr rfl fun s hs => ?_
  have hs16 : s < 16 := Finset.mem_range.mp hs
  rw [dif_pos hs16]
  have hlt : 16 * (t.val / 16) + s < cfg0.N := lt_of_lt_of_eq (by omega : 16 * (t.val / 16) + s < 32) N_0.symm
  have e := addendN_eq m c ⟨16 * (t.val / 16) + s, hlt⟩ d k
  have hg : grp (⟨16 * (t.val / 16) + s, hlt⟩ : Fin cfg0.N) = grp t := Fin.ext (by show (16 * (t.val / 16) + s) / 16 = t.val / 16; omega)
  have hb : blkI (⟨16 * (t.val / 16) + s, hlt⟩ : Fin cfg0.N) = ⟨s, hs16⟩ := Fin.ext (by show (16 * (t.val / 16) + s) % 16 = s; omega)
  rw [hg, hb] at e
  exact e

end Cert.KernelIdeal.Bridge

end
-- ==== Proof.KerFinal.lean ====
/-
  From what the flushing points wrote to the kernel program's result.

  The output array has one [128,4096] slab per head pair. A pair's slab is written back once, at the last of the pair's
  16 grid points, and then holds the pair's share. After the grid the program adds the two slabs and takes the quarter.
  Everything here is stated over an arbitrary per-pair function, so that it does not depend on how a share is computed.
-/
import proofs.«101005_j65206193488148_2_alg».proof.Proof.KerBlocks
import proofs.«101005_j65206193488148_2_alg».proof.Proof.AttnConsts
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.AttnSpec

/-! ## The operations after the grid, read at an index -/

/-- The sum over the pair axis from a zero initial value, times the broadcast quarter, at (d, k): the two slabs' entries
    added, then the quarter taken. -/
theorem tail_apply (A : (⟨S2x128x4096, .f32⟩ : BufTy).Contents (Elt Ideal)) (d : Fin 128) (k : Fin 4096) :
    (mulf (Host.reduceAdd (F := Ideal) A (constant (F := Ideal) S_ .f32 0x00000000#32) Facts₀.reducesTo_S2x128x4096_S128x4096_d0 Facts₀.h_S_)
        (broadcastInDim S128x4096 ![] Facts₀.bcast_S_S128x4096 (constant (F := Ideal) S_ .f32 0x3E800000#32))
          : (⟨S128x4096, .f32⟩ : BufTy).Contents (Elt Ideal)) (ix2 d k)
      = (∑ g : Fin 2, A (ix3 g d k)) * ((1 / 4 : ℝ) : EReal) := by
  have hred : S2x128x4096.Reduces [0] S128x4096 := by decide
  rw [mulf_apply, broadcastInDim_apply _ Facts₀.bcast_S_S128x4096 _ (ix2 d k) ix0 (fun a => a.elim0), constant_apply,
    Cert.AttnConsts.ofBits_quarter]
  simp only [Host.reduceAdd, Ideal.hostReduceAdd_def]
  rw [Ideal.hostReduceAdd_single Facts₀.reducesTo_S2x128x4096_S128x4096_d0 hred, constant_apply, Ideal.ofBits_zero_f32, zero_add]
  refine congrArg (· * _) (Finset.sum_congr rfl fun g _ => ?_)
  exact congrArg A (funext fun a => Fin.ext (by match a with | ⟨0, _⟩ => rfl | ⟨1, _⟩ => rfl | ⟨2, _⟩ => rfl))

variable (m : (ℓ : Loc nD τ sig) → Buf (Elt Ideal) ℓ) (ρ : Dev nD → PrngReg)
variable (S : Dev nD → Fin 2 → Fin 128 → Fin 4096 → EReal)

/-- The hypothesis: at each flushing point the output block holds the point's pair's share. -/
def Flushes : Prop := ∀ (c : Dev nD) (t : Fin cfg0.N), t.val % 16 = 15 → ∀ (d : Fin 128) (k : Fin 4096),
    ((outsAt0 m c t.val t.isLt).1 : Vec Ideal S1x128x4096 .f32) (ix3 (0 : Fin 1) d k) = S c (grp t) d k

/-- The slabs: the [2,128,4096] array whose entry (g, d, k) is pair g's share at (d, k). -/
def slabs (c : Dev nD) : Buf (Elt Ideal) ((c : Thread nD τ).loc main_v13) := fun i => S c (i 0) (i 1) (i 2)

/-! ## The output array after the grid -/

/-- What a flushing point writes back is its block of the slabs: the block of point t is slab t / 16, whole. -/
theorem flushed_eq (hS : Flushes m S) (c : Dev nD) (t : Fin cfg0.N) (hf : (cfg0.win 3).flush t = true) :
    (dats m 0 c).flushed 3 t = ((cfg0.win 3).blk t).view.read (Elt Ideal) (slabs S c) := by
  have h15 : t.val % 16 = 15 := (flush0_3 t).mp hf
  obtain ⟨-, -, -, -, -, -, -, -, h30, h31, h32⟩ := idx_facts t
  show (cfg0.win 3).cut (grid0.coords t) ((dats m 0 c).after 3 t) = _
  rw [after0_3]
  funext y
  obtain ⟨u, d, k, rfl⟩ : ∃ (u : Fin 1) (d : Fin 128) (k : Fin 4096), y = ix3 u d k := ⟨y 0, y 1, y 2, eq_ix3 y⟩
  obtain rfl : u = 0 := Subsingleton.elim _ _
  rw [View.read_apply]
  show ((outsAt0 m c t.val t.isLt).1 : Vec Ideal S1x128x4096 .f32) (ix3 (0 : Fin 1) d k)
    = slabs S c (((cfg0.win 3).blk t).view.emb (ix3 (0 : Fin 1) d k))
  rw [hS c t h15 d k]
  unfold slabs
  have e0 : (((cfg0.win 3).blk t).view.emb (ix3 (0 : Fin 1) d k) 0 : Fin 2) = grp t :=
    Fin.ext (by show win0_3.index t 0 * 1 + 1 * 0 = t.val / 16; rw [h30]; omega)
  have e1 : (((cfg0.win 3).blk t).view.emb (ix3 (0 : Fin 1) d k) 1 : Fin 128) = d :=
    Fin.ext (by show win0_3.index t 1 * 128 + 1 * d.val = d.val; rw [h31]; omega)
  have e2 : (((cfg0.win 3).blk t).view.emb (ix3 (0 : Fin 1) d k) 2 : Fin 4096) = k :=
    Fin.ext (by show win0_3.index t 2 * 4096 + 1 * k.val = k.val; rw [h32]; omega)
  rw [e0, e1, e2]

/-- Every entry of the output array lies in the block of a flushing point: entry (g, d, k) in that of point 16 g + 15. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 32 := N_0
  have hi0 : (i 0 : ℕ) < 2 := (i 0).isLt
  have hi1 : (i 1 : ℕ) < 128 := (i 1).isLt
  have hi2 : (i 2 : ℕ) < 4096 := (i 2).isLt
  obtain ⟨t, ht⟩ : ∃ t : Fin cfg0.N, t.val = 16 * (i 0 : ℕ) + 15 := ⟨⟨16 * (i 0 : ℕ) + 15, by omega⟩, rfl⟩
  obtain ⟨-, -, -, -, -, -, -, -, h30, h31, h32⟩ := idx_facts t
  refine ⟨t, (flush0_3 t).mpr (by omega), ?_⟩
  show i ∈ ((View.whole main_v13).slice (win0_3.rect t)).set
  rw [View.set_slice_whole, Rect.mem_set_unit]
  intro a
  match a with
  | ⟨0, _⟩ =>
    show win0_3.index t 0 * win0_3.size 0 ≤ (i 0 : ℕ) ∧ (i 0 : ℕ) < win0_3.index t 0 * win0_3.size 0 + win0_3.xsize (grid0.coords t) 0
    rw [h30, show win0_3.size 0 = 1 from rfl, show win0_3.xsize (grid0.coords t) 0 = 1 from rfl]; omega
  | ⟨1, _⟩ =>
    show win0_3.index t 1 * win0_3.size 1 ≤ (i 1 : ℕ) ∧ (i 1 : ℕ) < win0_3.index t 1 * win0_3.size 1 + win0_3.xsize (grid0.coords t) 1
    rw [h31, show win0_3.size 1 = 128 from rfl, show win0_3.xsize (grid0.coords t) 1 = 128 from rfl]; omega
  | ⟨2, _⟩ =>
    show win0_3.index t 2 * win0_3.size 2 ≤ (i 2 : ℕ) ∧ (i 2 : ℕ) < win0_3.index t 2 * win0_3.size 2 + win0_3.xsize (grid0.coords t) 2
    rw [h32, show win0_3.size 2 = 4096 from rfl, show win0_3.xsize (grid0.coords t) 2 = 4096 from rfl]; omega

/-- So after the grid the output array holds the slabs. -/
theorem final_slabs (hS : Flushes m S) (c : Dev nD) : (dats m 0 c).arrAt 3 cfg0.N = slabs S c :=
  (dats m 0 c).arrAt_eq_of_cover 3 (slabs S c) (flushed_eq m S hS c) (cover c)

/-! ## The program's result -/

/-- The program's result at (d, k): the two pairs' shares added, then the quarter taken. -/
theorem result_apply (hS : Flushes m S) (c : Dev nD) (d : Fin 128) (k : Fin 4096) :
    (Pipeline.afterTail₀ cfgs (dats m) 0 (V0 m) [hostOps1] c main_v16 : S128x4096.Idx → EReal) (ix2 d k)
      = (∑ g : Fin 2, S c g d k) * ((1 / 4 : ℝ) : EReal) := by
  unfold Pipeline.afterTail₀
  show (StableHlo.after (hostOps1 (F := Ideal)) _ (Proc.devRef .tc main_v16) : S128x4096.Idx → EReal) (ix2 d k) = _
  after_results
  have hw : Pipeline.withArrays (cfgs 0).spec c (V0 m c) (fun w => (dats m 0 c).arrAt w (cfgs 0).N) (Proc.devRef .tc main_v13)
      = slabs S c :=
    (Pipeline.withArrays_arr spec0 launch0.win.arr_inj c _ _ 3).trans (final_slabs m S hS c)
  rw [hw]
  exact tail_apply (slabs S c) d k

/-- The run of the program: it terminates with the result array at the two pairs' shares added and quartered, and the
    seven arguments unchanged. -/
theorem run_result (hS : Flushes m S) :
    θ_run defs (onTc (τ := τ) (main (F := Ideal))) ⟨m, fun _ => 0, ρ⟩ (fun r => ∀ c : Dev nD,
      r.2.mem ((c.tc : Thread nD τ).loc main_v16) = (fun i => (∑ g : Fin 2, S c g (i 0) (i 1)) * ((1 / 4 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v16 (Pipeline.mem_restRefs_of main_v16 (by decide) (by decide))).trans (funext fun i => by
        obtain ⟨a, b, rfl⟩ : ∃ (a : Fin 128) (b : Fin 4096), i = ix2 a b := ⟨i 0, i 1, eq_ix2 i⟩
        exact result_apply m S hS c a b),
      ((h c).1 2).trans (((dats m 0 c).arrAt_in 2 rfl _).trans ((A_eq m c 2).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Bridge

end
-- ==== Proof.lean ====
/-
  Head-averaged attention applied to the raw input: a tiled kernel against its plain reference, on the extended reals.

  Both programs form the query and key projections x.T @ W + b of the 4096 nodes, and for each of 4 heads the scores
  (q · k) · scale of every pair of nodes, turned into weights row by row by the softmax; the result is x times the
  mean over the heads of the weights. The reference does exactly that. The kernel splits the heads into two pairs and
  the nodes into 16 blocks of 256 rows: at each of the 32 grid points it multiplies a block of x by the SUM of the
  pair's two weight blocks and adds the product to an accumulator that is reset at the first block of a pair and
  copied out at the last; afterwards the two pairs' slabs are added and multiplied by a quarter.

  The two arrangements differ by the distributive law (x · (a + b) against x · a + x · b, and a quarter moved through
  a sum), which on the extended reals needs the terms to be real numbers. They are: the precondition makes every
  input real, so the projections, the scores, the row maxima, the exponentials (positive), the row sums (positive,
  hence nonzero) and the weights are real. The scale is the same single-precision number in both programs and is
  never evaluated; 0.25 and 4.0 are exact.

  The kernel's run: at every grid point the accumulator is the fold over the point's run of 16, by induction on the
  offset; at a run's last point the output block receives it; those blocks cover the [2,128,4096] array; the host
  operations after the region add the two slabs and scale. The reference's run is read operation by operation.
-/
import proofs.«101005_j65206193488148_2_alg».proof.Defs
import proofs.«101005_j65206193488148_2_alg».proof.Proof.Gen.Kernel
import proofs.«101005_j65206193488148_2_alg».proof.Proof.Gen.Kernel.Skeleton
import proofs.«101005_j65206193488148_2_alg».proof.Proof.Gen.Kernel.Launch
import proofs.«101005_j65206193488148_2_alg».proof.Proof.Gen.Kernel.Points
import proofs.«101005_j65206193488148_2_alg».proof.Proof.Gen.Kernel.Frame
import proofs.«101005_j65206193488148_2_alg».proof.Proof.Gen.KernelIdeal
import proofs.«101005_j65206193488148_2_alg».proof.Proof.Gen.KernelIdeal.Skeleton
import proofs.«101005_j65206193488148_2_alg».proof.Proof.Gen.KernelIdeal.Launch
import proofs.«101005_j65206193488148_2_alg».proof.Proof.Gen.KernelIdeal.Points
import proofs.«101005_j65206193488148_2_alg».proof.Proof.Gen.KernelIdeal.Frame
import proofs.«101005_j65206193488148_2_alg».proof.Proof.Gen.ReferenceIdeal
import proofs.«101005_j65206193488148_2_alg».proof.Proof.Gen.ReferenceIdeal.Run
import proofs.«101005_j65206193488148_2_alg».proof.Proof.Gen.ReferenceIdeal.Read
import proofs.«101005_j65206193488148_2_alg».proof.Proof.Gen.Pre_finite_inputs
import Idealize.ShloMosaic.Adequacy
import Idealize.ShloMosaic.Init
import proofs.«101005_j65206193488148_2_alg».proof.Proof.Claims
import proofs.«101005_j65206193488148_2_alg».proof.Proof.KerShare
import proofs.«101005_j65206193488148_2_alg».proof.Proof.KerFinal

noncomputable section

namespace Cert.Proof

open Idealize.ShloMosaic Idealize.SL.Sem Cert.AttnSpec Cert.KernelIdeal.Bridge

/-- The kernel program's run: its result array ends at the block-and-pair arrangement of the specification — the
    two pairs' shares added and a quarter taken — because each flushing point writes its pair's share. -/
theorem kernel_runs : Cert.Proof.AttnClaims.KernelRuns := fun m ρ =>
  run_result m ρ (fun c => pairShare (qaOf m c) (kaOf m c) (xOf m c)) fun c t h15 d k => out_flush m c t h15 d k

theorem claim : Cert.Claim := ⟨Cert.Kernel.Gen.facts, Cert.KernelIdeal.Gen.facts, Cert.ReferenceIdeal.Gen.facts, Cert.Pre_finite_inputs.Gen.facts,
  Cert.Proof.AttnClaims.frame_p, Cert.Proof.AttnClaims.frame_pi, Cert.Proof.AttnClaims.frame_ri, Cert.Proof.AttnClaims.preserves,
  Cert.Proof.AttnClaims.algebraic kernel_runs⟩

end Cert.Proof

end
